-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x9 : Shape := ⟨2, ![4194304, 9]⟩
abbrev S4194304x2 : Shape := ⟨2, ![4194304, 2]⟩
abbrev S16x2 : Shape := ⟨2, ![16, 2]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S4194304x9 : S_.BroadcastsInDim S4194304x9 (![] : Fin 0 → Fin S4194304x9.rank)
  reducesTo_S4194304x9_S_d0_1 : S4194304x9.ReducesTo [0, 1] S_
  h_S_ : 0 < S_.numel
  bcast_S_S4194304x2 : S_.BroadcastsInDim S4194304x2 (![] : Fin 0 → Fin S4194304x2.rank)
  reducesTo_S4194304x2_S_d0_1 : S4194304x2.ReducesTo [0, 1] S_
  bcast_S_S16x2 : S_.BroadcastsInDim S16x2 (![] : Fin 0 → Fin S16x2.rank)
  reducesTo_S16x2_S_d0_1 : S16x2.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x16 .f32) (main_arg5 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4194304x9 .f32) (main_arg1 : FVec F S4194304x2 .f32) (main_arg2 : FVec F S16x2 .f32) (main_arg3 : FVec F S16 .f32) (main_arg4 : FVec F S1x16 .f32) (main_arg5 : FVec F S1 .f32) : IVec S_ 1 :=
  let main_v0 : FVec F S4194304x9 .f32 := Host.absf main_arg0
  let main_cst : FVec F S_ .f32 := constant S_ .f32 0x7F800000#32
  let main_v1 : FVec F S4194304x9 .f32 := broadcastInDim S4194304x9 ![] bcast_S_S4194304x9 main_cst
  let main_v2 : IVec S4194304x9 1 := cmpf .olt main_v0 main_v1
  let main_c : IVec S_ 1 := constantI S_ 1 1#1
  let main_v3 : IVec S_ 1 := (fun x v => Host.reduce IntOp.andi x v reducesTo_S4194304x9_S_d0_1 h_S_) main_v2 main_c
  let main_v4 : FVec F S4194304x2 .f32 := Host.absf main_arg1
  let main_cst_0 : FVec F S_ .f32 := constant S_ .f32 0x7F800000#32
  let main_v5 : FVec F S4194304x2 .f32 := broadcastInDim S4194304x2 ![] bcast_S_S4194304x2 main_cst_0
  let main_v6 : IVec S4194304x2 1 := cmpf .olt main_v4 main_v5
  let main_c_1 : IVec S_ 1 := constantI S_ 1 1#1
  let main_v7 : IVec S_ 1 := (fun x v => Host.reduce IntOp.andi x v reducesTo_S4194304x2_S_d0_1 h_S_) main_v6 main_c_1
  let main_v8 : IVec S_ 1 := andi main_v3 main_v7
  let main_v9 : FVec F S16x2 .f32 := Host.absf main_arg2
  let main_cst_2 : FVec F S_ .f32 := constant S_ .f32 0x7F800000#32
  let main_v10 : FVec F S16x2 .f32 := broadcastInDim S16x2 ![] bcast_S_S16x2 main_cst_2
  let main_v11 : IVec S16x2 1 := cmpf .olt main_v9 main_v10
  let main_c_3 : IVec S_ 1 := constantI S_ 1 1#1
  let main_v12 : IVec S_ 1 := (fun x v => Host.reduce IntOp.andi x v reducesTo_S16x2_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S4194304x9 : Shape := ⟨2, ![4194304, 9]⟩
abbrev S4194304x2 : Shape := ⟨2, ![4194304, 2]⟩
abbrev S16x2 : Shape := ⟨2, ![16, 2]⟩
abbrev S16 : Shape := ⟨1, ![16]⟩
abbrev S1x16 : Shape := ⟨2, ![1, 16]⟩
abbrev S1 : Shape := ⟨1, ![1]⟩
abbrev S1x1 : Shape := ⟨2, ![1, 1]⟩
abbrev S65536x9 : Shape := ⟨2, ![65536, 9]⟩
abbrev S65536x2 : Shape := ⟨2, ![65536, 2]⟩
abbrev S65536x1 : Shape := ⟨2, ![65536, 1]⟩
abbrev S2x16 : Shape := ⟨2, ![2, 16]⟩
abbrev S65536x16 : Shape := ⟨2, ![65536, 16]⟩
abbrev S16x1 : Shape := ⟨2, ![16, 1]⟩
abbrev S65536 : Shape := ⟨1, ![65536]⟩

abbrev nBuf : Space → Nat
  | .hbm => 9
  | .vmem => 10
  | .smem => 0
  | _ => 0

abbrev bufTy : (tb : Table) → Fin (tcTables nBuf tb) → BufTy
  | .hbm, ⟨0, _⟩ => ⟨S4194304x9, .f32⟩
  | .hbm, ⟨1, _⟩ => ⟨S4194304x2, .f32⟩
  | .hbm, ⟨2, _⟩ => ⟨S16x2, .f32⟩
  | .hbm, ⟨3, _⟩ => ⟨S16, .f32⟩
  | .hbm, ⟨4, _⟩ => ⟨S1x16, .f32⟩
  | .hbm, ⟨5, _⟩ => ⟨S1, .f32⟩
  | .hbm, ⟨6, _⟩ => ⟨S1x16, .f32⟩
  | .hbm, ⟨7, _⟩ => ⟨S1x1, .f32⟩
  | .hbm, ⟨8, _⟩ => ⟨S4194304x9, .f32⟩
  | .local _ .vmem, ⟨0, _⟩ => ⟨S65536x9, .f32⟩
  | .local _ .vmem, ⟨1, _⟩ => ⟨S65536x9, .f32⟩
  | .local _ .vmem, ⟨2, _⟩ => ⟨S65536x2, .f32⟩
  | .local _ .vmem, ⟨3, _⟩ => ⟨S65536x2, .f32⟩
  | .local _ .vmem, ⟨4, _⟩ => ⟨S16x2, .f32⟩
  | .local _ .vmem, ⟨5, _⟩ => ⟨S1x16, .f32⟩
  | .local _ .vmem, ⟨6, _⟩ => ⟨S1x16, .f32⟩
  | .local _ .vmem, ⟨7, _⟩ => ⟨S1x1, .f32⟩
  | .local _ .vmem, ⟨8, _⟩ => ⟨S65536x9, .f32⟩
  | .local _ .vmem, ⟨9, _⟩ => ⟨S65536x9, .f32⟩
  | _, _ => ⟨S4194304x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S65536x9 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16_S1x16 : S16.ShapeCasts S1x16
  shapeCasts_S1_S1x1 : S1.ShapeCasts S1x1
  inb_S65536x9_S65536x9_0_0 : ∀ a, (![0, 0] : Fin 2 → Nat) a + S65536x9.size a ≤ S65536x9.size a
  h_S65536x9 : 0 < S65536x9.numel
  inb_S65536x2_S65536x2_0_0 : ∀ a, (![0, 0] : Fin 2 → Nat) a + S65536x2.size a ≤ S65536x2.size a
  h_S65536x2 : 0 < S65536x2.numel
  slices_S65536x9_o0_0_S65536x2 : S65536x9.Slices ![0, 0] S65536x2
  slices_S65536x9_o0_2_S65536x2 : S65536x9.Slices ![0, 2] S65536x2
  slices_S65536x9_o0_4_S65536x1 : S65536x9.Slices ![0, 4] S65536x1
  slices_S65536x9_o0_5_S65536x2 : S65536x9.Slices ![0, 5] S65536x2
  slices_S65536x9_o0_7_S65536x2 : S65536x9.Slices ![0, 7] S65536x2
  inb_S16x2_S16x2_0_0 : ∀ a, (![0, 0] : Fin 2 → Nat) a + S16x2.size a ≤ S16x2.size a
  h_S16x2 : 0 < S16x2.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S16x2_p1_0_S2x16 : S16x2.Transposes [1, 0] S2x16
  broadcasts_S1x16_S65536x16 : S1x16.Broadcasts S65536x16
  transposes_S1x16_p1_0_S16x1 : S1x16.Transposes [1, 0] S16x1
  broadcasts_S1x1_S65536x1 : S1x1.Broadcasts S65536x1
  reduces_S65536x2_S65536 : S65536x2.Reduces [1] S65536
  shapeCasts_S65536_S65536x1 : S65536.ShapeCasts S65536x1
  broadcasts_S65536x1_S65536x2 : S65536x1.Broadcasts S65536x2
  concatenates_S65536x2_S65536x2_S65536x1_S65536x2_S65536x2_S65536x9_d1 : Shape.Concatenates [S65536x2, S65536x2, S65536x1, S65536x2, S65536x2] S65536x9 1
  dot_S65536x2_S2x16_S65536x16_1_0_0_1_n_n_wf : DotDims.WF S65536x2 S2x16 S65536x16 [1] [0] [0] [1] [] []
  dot_S65536x16_S16x1_S65536x1_1_0_0_1_n_n_wf : DotDims.WF S65536x16 S16x1 S65536x1 [1] [0] [0] [1] [] []
  dot_S65536x16_S16x2_S65536x2_1_0_0_1_n_n_wf : DotDims.WF S65536x16 S16x2 S65536x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x9.size a ≤ S4194304x9.size a
  hwx0_0 : ∀ i : grid0.Coords, EltTy.bits .f32 = 32 ∨ (Rect.block (s := S4194304x9) S65536x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536x2.size a ≤ S4194304x2.size a
  hwx0_1 : ∀ i : grid0.Coords, EltTy.bits .f32 = 32 ∨ (Rect.block (s := S4194304x2) S65536x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2.size a ≤ S16x2.size a
  hwx0_2 : ∀ i : grid0.Coords, EltTy.bits .f32 = 32 ∨ (Rect.block (s := S16x2) S16x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S65536x9.size a ≤ S4194304x9.size a
  hwx0_6 : ∀ i : grid0.Coords, EltTy.bits .f32 = 32 ∨ (Rect.block (s := S4194304x9) S65536x9.size (cc0_transform_6 i) (hinb0_6 i)).WholeWords (EltTy.packing .f32)

variable [Facts₀]

def dot_S65536x2_S2x16_S65536x16_1_0_0_1_n_n : DotDims S65536x2 S2x16 S65536x16 where
  lhsContracting := [1]
  rhsContracting := [0]
  lhsNonContracting := [0]
  rhsNonContracting := [1]
  lhsBatch := []
  rhsBatch := []
  wf := dot_S65536x2_S2x16_S65536x16_1_0_0_1_n_n_wf
def dot_S65536x16_S16x1_S65536x1_1_0_0_1_n_n : DotDims S65536x16 S16x1 S65536x1 where
  lhsContracting := [1]
  rhsContracting := [0]
  lhsNonContracting := [0]
  rhsNonContracting := [1]
  lhsBatch := []
  rhsBatch := []
  wf := dot_S65536x16_S16x1_S65536x1_1_0_0_1_n_n_wf
def dot_S65536x16_S16x2_S65536x2_1_0_0_1_n_n : DotDims S65536x16 S16x2 S65536x2 where
  lhsContracting := [1]
  rhsContracting := [0]
  lhsNonContracting := [0]
  rhsNonContracting := [1]
  lhsBatch := []
  rhsBatch := []
  wf := dot_S65536x16_S16x2_S65536x2_1_0_0_1_n_n_wf

abbrev win0_0 : Pipeline.Window sig grid0 :=
  Pipeline.Window.ofSpec (Memref.whole main_arg0) S65536x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S65536x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S65536x9.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4194304x9 : Shape := ⟨2, ![4194304, 9]⟩
abbrev S4194304x2 : Shape := ⟨2, ![4194304, 2]⟩
abbrev S16x2 : Shape := ⟨2, ![16, 2]⟩
abbrev S16 : Shape := ⟨1, ![16]⟩
abbrev S1x16 : Shape := ⟨2, ![1, 16]⟩
abbrev S1 : Shape := ⟨1, ![1]⟩
abbrev S4194304x1 : Shape := ⟨2, ![4194304, 1]⟩
abbrev S2x16 : Shape := ⟨2, ![2, 16]⟩
abbrev S4194304x16 : Shape := ⟨2, ![4194304, 16]⟩
abbrev S_ : Shape := ⟨0, ![]⟩
abbrev S16x1 : Shape := ⟨2, ![16, 1]⟩
abbrev S1x1 : Shape := ⟨2, ![1, 1]⟩
abbrev S4194304 : Shape := ⟨1, ![4194304]⟩

abbrev nBuf : Space → Nat
  | .hbm => 138
  | .vmem => 0
  | .smem => 0
  | _ => 0

abbrev hbmTy0_0 (i : Nat) : BufTy := match i % 128 with
  | 0 => ⟨S4194304x9, .f32⟩
  | 1 => ⟨S4194304x2, .f32⟩
  | 2 => ⟨S16x2, .f32⟩
  | 3 => ⟨S16, .f32⟩
  | 4 => ⟨S1x16, .f32⟩
  | 5 => ⟨S1, .f32⟩
  | 6 => ⟨S4194304x2, .f32⟩
  | 7 => ⟨S4194304x2, .f32⟩
  | 8 => ⟨S4194304x1, .f32⟩
  | 9 => ⟨S4194304x2, .f32⟩
  | 10 => ⟨S4194304x2, .f32⟩
  | 11 => ⟨S2x16, .f32⟩
  | 12 => ⟨S4194304x16, .f32⟩
  | 13 => ⟨S1x16, .f32⟩
  | 14 => ⟨S4194304x16, .f32⟩
  | 15 => ⟨S4194304x16, .f32⟩
  | 16 => ⟨S4194304x16, .f32⟩
  | 17 => ⟨S_, .f32⟩
  | 18 => ⟨S4194304x16, .f32⟩
  | 19 => ⟨S4194304x16, .f32⟩
  | 20 => ⟨S16x1, .f32⟩
  | 21 => ⟨S4194304x1, .f32⟩
  | 22 => ⟨S1x1, .f32⟩
  | 23 => ⟨S4194304x1, .f32⟩
  | 24 => ⟨S4194304x1, .f32⟩
  | 25 => ⟨S4194304x2, .f32⟩
  | 26 => ⟨S_, .f32⟩
  | 27 => ⟨S4194304, .f32⟩
  | 28 => ⟨S4194304x1, .f32⟩
  | 29 => ⟨S_, .f32⟩
  | 30 => ⟨S4194304x1, .f32⟩
  | 31 => ⟨S4194304x1, .f32⟩
  | 32 => ⟨S_, .f32⟩
  | 33 => ⟨S4194304x1, .f32⟩
  | 34 => ⟨S4194304x1, .f32⟩
  | 35 => ⟨S_, .f32⟩
  | 36 => ⟨S4194304x1, .f32⟩
  | 37 => ⟨S4194304x1, .i1⟩
  | 38 => ⟨S_, .f32⟩
  | 39 => ⟨S4194304x1, .f32⟩
  | 40 => ⟨S4194304x1, .f32⟩
  | 41 => ⟨S_, .f32⟩
  | 42 => ⟨S4194304x1, .f32⟩
  | 43 => ⟨S4194304x1, .f32⟩
  | 44 => ⟨S4194304x1, .f32⟩
  | 45 => ⟨S_, .f32⟩
  | 46 => ⟨S_, .f32⟩
  | 47 => ⟨S_, .f32⟩
  | 48 => ⟨S4194304x1, .f32⟩
  | 49 => ⟨S4194304x1, .f32⟩
  | 50 => ⟨S_, .f32⟩
  | 51 => ⟨S4194304x1, .f32⟩
  | 52 => ⟨S4194304x1, .f32⟩
  | 53 => ⟨S_, .f32⟩
  | 54 => ⟨S4194304, .f32⟩
  | 55 => ⟨S4194304x2, .f32⟩
  | 56 => ⟨S4194304x2, .f32⟩
  | 57 => ⟨S4194304x2, .f32⟩
  | 58 => ⟨S4194304x2, .f32⟩
  | 59 => ⟨S4194304x16, .f32⟩
  | 60 => ⟨S4194304x16, .f32⟩
  | 61 => ⟨S4194304x16, .f32⟩
  | 62 => ⟨S4194304x16, .f32⟩
  | 63 => ⟨S4194304x2, .f32⟩
  | 64 => ⟨S4194304x2, .f32⟩
  | 65 => ⟨S_, .f32⟩
  | 66 => ⟨S4194304x2, .f32⟩
  | 67 => ⟨S4194304x2, .f32⟩
  | 68 => ⟨S4194304x2, .f32⟩
  | 69 => ⟨S_, .f32⟩
  | 70 => ⟨S4194304x2, .f32⟩
  | 71 => ⟨S4194304x2, .f32⟩
  | 72 => ⟨S4194304x2, .f32⟩
  | 73 => ⟨S_, .f32⟩
  | 74 => ⟨S4194304x2, .f32⟩
  | 75 => ⟨S4194304x2, .f32⟩
  | 76 => ⟨S4194304x2, .f32⟩
  | 77 => ⟨S_, .f32⟩
  | 78 => ⟨S4194304x2, .f32⟩
  | 79 => ⟨S4194304x2, .f32⟩
  | 80 => ⟨S4194304x2, .f32⟩
  | 81 => ⟨S4194304x2, .f32⟩
  | 82 => ⟨S_, .f32⟩
  | 83 => ⟨S4194304, .f32⟩
  | 84 => ⟨S4194304x1, .f32⟩
  | 85 => ⟨S_, .f32⟩
  | 86 => ⟨S4194304x1, .f32⟩
  | 87 => ⟨S4194304x1, .f32⟩
  | 88 => ⟨S2x16, .f32⟩
  | 89 => ⟨S4194304x16, .f32⟩
  | 90 => ⟨S1x16, .f32⟩
  | 91 => ⟨S4194304x16, .f32⟩
  | 92 => ⟨S4194304x16, .f32⟩
  | 93 => ⟨S4194304x16, .f32⟩
  | 94 => ⟨S16x1, .f32⟩
  | 95 => ⟨S4194304x1, .f32⟩
  | 96 => ⟨S1x1, .f32⟩
  | 97 => ⟨S4194304x1, .f32⟩
  | 98 => ⟨S4194304x1, .f32⟩
  | 99 => ⟨S4194304x2, .f32⟩
  | 100 => ⟨S_, .f32⟩
  | 101 => ⟨S4194304, .f32⟩
  | 102 => ⟨S4194304x1, .f32⟩
  | 103 => ⟨S_, .f32⟩
  | 104 => ⟨S4194304x1, .f32⟩
  | 105 => ⟨S4194304x1, .f32⟩
  | 106 => ⟨S_, .f32⟩
  | 107 => ⟨S4194304x1, .f32⟩
  | 108 => ⟨S4194304x1, .f32⟩
  | 109 => ⟨S4194304x1, .f32⟩
  | 110 => ⟨S4194304x1, .f32⟩
  | 111 => ⟨S4194304x1, .f32⟩
  | 112 => ⟨S_, .f32⟩
  | 113 => ⟨S4194304x1, .f32⟩
  | 114 => ⟨S4194304x1, .f32⟩
  | 115 => ⟨S4194304x1, .f32⟩
  | 116 => ⟨S4194304x1, .f32⟩
  | 117 => ⟨S_, .f32⟩
  | 118 => ⟨S4194304x1, .f32⟩
  | 119 => ⟨S4194304x1, .f32⟩
  | 120 => ⟨S4194304x1, .f32⟩
  | 121 => ⟨S_, .f32⟩
  | 122 => ⟨S4194304x2, .f32⟩
  | 123 => ⟨S4194304x2, .f32⟩
  | 124 => ⟨S_, .f32⟩
  | 125 => ⟨S4194304x2, .f32⟩
  | 126 => ⟨S4194304x2, .f32⟩
  | 127 => ⟨S4194304x2, .f32⟩
  | _ => ⟨S4194304x9, .f32⟩

abbrev hbmTy0_1 (i : Nat) : BufTy := match i % 128 with
  | 0 => ⟨S4194304x2, .f32⟩
  | 1 => ⟨S_, .f32⟩
  | 2 => ⟨S4194304x2, .f32⟩
  | 3 => ⟨S4194304x2, .f32⟩
  | 4 => ⟨S4194304x2, .f32⟩
  | 5 => ⟨S_, .f32⟩
  | 6 => ⟨S4194304x2, .f32⟩
  | 7 => ⟨S4194304x2, .f32⟩
  | 8 => ⟨S4194304x2, .f32⟩
  | 9 => ⟨S4194304x9, .f32⟩
  | _ => ⟨S4194304x9, .f32⟩

abbrev hbmTy (i : Nat) : BufTy := match i / 128 with
  | 0 => hbmTy0_0 i
  | 1 => hbmTy0_1 i
  | _ => ⟨S4194304x9, .f32⟩

abbrev bufTy : (tb : Table) → Fin (tcTables nBuf tb) → BufTy
  | .hbm, ⟨i, _⟩ => hbmTy i
  | _, _ => ⟨S4194304x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_15 : Ref sig .tc := ⟨.hbm, 100, rfl⟩
abbrev main_v76 : Ref sig .tc := ⟨.hbm, 101, rfl⟩
abbrev main_v77 : Ref sig .tc := ⟨.hbm, 102, rfl⟩
abbrev main_cst_16 : Ref sig .tc := ⟨.hbm, 103, rfl⟩
abbrev main_v78 : Ref sig .tc := ⟨.hbm, 104, rfl⟩
abbrev main_v79 : Ref sig .tc := ⟨.hbm, 105, rfl⟩
abbrev main_call1_cst : Ref sig .tc := ⟨.hbm, 106, rfl⟩
abbrev main_call1_v0 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_cst_20 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_21 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_22 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩

abbrev nD : Nat := 1
abbrev τ : Topo := Topo.v7x

variable {F : FTy → Type} [FloatOps F]

class Facts₀ : Prop where
  slices_S4194304x9_S4194304x2_0_0 : S4194304x9.Slices ![0, 0] S4194304x2
  slices_S4194304x9_S4194304x2_0_2 : S4194304x9.Slices ![0, 2] S4194304x2
  slices_S4194304x9_S4194304x1_0_4 : S4194304x9.Slices ![0, 4] S4194304x1
  slices_S4194304x9_S4194304x2_0_5 : S4194304x9.Slices ![0, 5] S4194304x2
  slices_S4194304x9_S4194304x2_0_7 : S4194304x9.Slices ![0, 7] S4194304x2
  transposes_S16x2_S2x16_1_0 : S16x2.Transposes [1, 0] S2x16
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  bcast_S_S4194304x16 : S_.BroadcastsInDim S4194304x16 (![] : Fin 0 → Fin S4194304x16.rank)
  transposes_S1x16_S16x1_1_0 : S1x16.Transposes [1, 0] S16x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x2_S4194304_d1 : S4194304x2.ReducesTo [1] S4194304
  h_S_ : 0 < S_.numel
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  reducesTo_S4194304x1_S_d0_1 : S4194304x1.ReducesTo [0, 1] S_
  reducesTo_S4194304x1_S4194304_d1 : S4194304x1.ReducesTo [1] S4194304
  bcast_S4194304_S4194304x2_0 : S4194304.BroadcastsInDim S4194304x2 (![0] : Fin 1 → Fin S4194304x2.rank)
  bcast_S_S4194304x2 : S_.BroadcastsInDim S4194304x2 (![] : Fin 0 → Fin S4194304x2.rank)
  concatenates_S4194304x2_S4194304x2_S4194304x1_S4194304x2_S4194304x2_S4194304x9_d1 : Shape.Concatenates [S4194304x2, S4194304x2, S4194304x1, S4194304x2, S4194304x2] S4194304x9 1
  dot_S4194304x2_S2x16_S4194304x16_1_0_0_1_n_n_wf : DotDims.WF S4194304x2 S2x16 S4194304x16 [1] [0] [0] [1] [] []
  dot_S4194304x16_S16x1_S4194304x1_1_0_0_1_n_n_wf : DotDims.WF S4194304x16 S16x1 S4194304x1 [1] [0] [0] [1] [] []
  dot_S4194304x1_S16x1_S4194304x16_1_1_0_0_n_n_wf : DotDims.WF S4194304x1 S16x1 S4194304x16 [1] [1] [0] [0] [] []
  dot_S4194304x16_S2x16_S4194304x2_1_1_0_0_n_n_wf : DotDims.WF S4194304x16 S2x16 S4194304x2 [1] [1] [0] [0] [] []

variable [Facts₀]

def dot_S4194304x2_S2x16_S4194304x16_1_0_0_1_n_n : DotDims S4194304x2 S2x16 S4194304x16 where
  lhsContracting := [1]
  rhsContracting := [0]
  lhsNonContracting := [0]
  rhsNonContracting := [1]
  lhsBatch := []
  rhsBatch := []
  wf := dot_S4194304x2_S2x16_S4194304x16_1_0_0_1_n_n_wf
def dot_S4194304x16_S16x1_S4194304x1_1_0_0_1_n_n : DotDims S4194304x16 S16x1 S4194304x1 where
  lhsContracting := [1]
  rhsContracting := [0]
  lhsNonContracting := [0]
  rhsNonContracting := [1]
  lhsBatch := []
  rhsBatch := []
  wf := dot_S4194304x16_S16x1_S4194304x1_1_0_0_1_n_n_wf
def dot_S4194304x1_S16x1_S4194304x16_1_1_0_0_n_n : DotDims S4194304x1 S16x1 S4194304x16 where
  lhsContracting := [1]
  rhsContracting := [1]
  lhsNonContracting := [0]
  rhsNonContracting := [0]
  lhsBatch := []
  rhsBatch := []
  wf := dot_S4194304x1_S16x1_S4194304x16_1_1_0_0_n_n_wf
def dot_S4194304x16_S2x16_S4194304x2_1_1_0_0_n_n : DotDims S4194304x16 S2x16 S4194304x2 where
  lhsContracting := [1]
  rhsContracting := [1]
  lhsNonContracting := [0]
  rhsNonContracting := [0]
  lhsBatch := []
  rhsBatch := []
  wf := dot_S4194304x16_S2x16_S4194304x2_1_1_0_0_n_n_wf

class Facts : Prop extends Facts₀ where

variable [Facts]
-- ==== Proof.Row.lean ====
/-
  One row of the batch, on the extended reals.

  A row `x : Fin 9 → EReal` holds a position `q` (2 entries), a momentum `p` (2), an entropy-like scalar `s` (1),
  and a resonator's position `r` (2) and velocity `vr` (2); `u` is the row's force (2).  The potential of `q` is a
  two-layer perceptron `mlp q = Σ_j tanh (Σ_k q_k · w1 j k + b1 j) · w2 j + b2` plus the square of the barrier
  `relu q = max (|q|² − 20) 0`.  One explicit Euler step of the damped Hamiltonian system and of the driven
  resonator produces the new row; the only place where two spellings of the same update differ is the gradient of
  the potential with respect to `q`:

    * the hand-derived form  `Σ_j ((1 − h_j²) · w2 j) · w1 j c  +  (4 · relu) · q_c`,
    * the form automatic differentiation produces
        `(q_c · g + g · q_c)  +  Σ_j (w2' j · (1 − h_j) + (w2' j · (1 − h_j)) · h_j) · w1 j c`
      with `w2' j = 1 · w2 j` and `g = if 0 < |q|² − 20 then 1 · (2 · relu) else 0`.

  On real (finite) rows and weights the two agree: `(1 − h)(1 + h) = 1 − h²` term by term, and the barrier's
  derivative `2 · relu · 2 q_c` is `4 · relu · q_c` where the barrier is active and `0` where it is not.  Both
  laws use distributivity, which holds on the reals and fails at the infinities; `tanh` is real everywhere.
-/
import Idealize.ShloMosaic.PureOps.Ideal
import Idealize.ShloMosaic.PureOps.Ideal.Laws
import Idealize.ShloMosaic.Lib.IdealHost

noncomputable section

namespace Cert.Row

open Idealize.ShloMosaic

/-! ## The constants, as the binary words both programs spell -/

local macro "K0" : term => `((Ideal.ofBits .f32 0x00000000#32 : EReal))
local macro "K1" : term => `((Ideal.ofBits .f32 0x3F800000#32 : EReal))
local macro "K2" : term => `((Ideal.ofBits .f32 0x40000000#32 : EReal))
local macro "K4" : term => `((Ideal.ofBits .f32 0x40800000#32 : EReal))
local macro "K20" : term => `((Ideal.ofBits .f32 0x41A00000#32 : EReal))
local macro "K01" : term => `((Ideal.ofBits .f32 0x3DCCCCCD#32 : EReal))
local macro "K02" : term => `((Ideal.ofBits .f32 0x3E4CCCCD#32 : EReal))
local macro "K05" : term => `((Ideal.ofBits .f32 0x3F000000#32 : EReal))
local macro "Km1" : term => `((Ideal.ofBits .f32 0xBF800000#32 : EReal))

theorem k0 : K0 = ((0 : ℝ) : EReal) := by rw [Ideal.ofBits_zero_f32]; rfl
theorem k1 : K1 = ((1 : ℝ) : EReal) := by
  simp [Ideal.ofBits, Ideal.ieee, -EReal.coe_mul]; norm_num
theorem k2 : K2 = ((2 : ℝ) : EReal) := by
  simp [Ideal.ofBits, Ideal.ieee, -EReal.coe_mul]; norm_num
theorem k4 : K4 = ((4 : ℝ) : EReal) := by
  simp [Ideal.ofBits, Ideal.ieee, -EReal.coe_mul]; norm_num
theorem k20 : K20 = ((20 : ℝ) : EReal) := by
  simp [Ideal.ofBits, Ideal.ieee, -EReal.coe_mul]; norm_num

/-! ## The row's fields and the potential -/

section
variable (x : Fin 9 → EReal) (u : Fin 2 → EReal) (w1 : Fin 16 → Fin 2 → EReal) (b1 w2 : Fin 16 → EReal) (b2 : EReal)

def q (k : Fin 2) : EReal := x ⟨k.val, by omega⟩
def p (k : Fin 2) : EReal := x ⟨2 + k.val, by omega⟩
def s : EReal := x ⟨4, by omega⟩
def r (k : Fin 2) : EReal := x ⟨5 + k.val, by omega⟩
def vr (k : Fin 2) : EReal := x ⟨7 + k.val, by omega⟩

/-- The hidden layer: `tanh (q · w1ᵀ + b1)`. -/
def hid (j : Fin 16) : EReal := Ideal.tanh ((∑ k : Fin 2, q x k * w1 j k) + b1 j)
/-- `|q|²`. -/
def qn : EReal := ∑ k : Fin 2, q x k * q x k
/-- The barrier `max (|q|² − 20) 0`. -/
def relu : EReal := max (qn x - K20) K0
def mlp : EReal := (∑ j : Fin 16, hid x w1 b1 j * w2 j) + b2
/-- The potential. -/
def pot : EReal := mlp x w1 b1 w2 b2 + relu x * relu x

/-- The gradient of the potential, derived by hand. -/
def gradK (c : Fin 2) : EReal :=
  (∑ j : Fin 16, ((K1 - hid x w1 b1 j * hid x w1 b1 j) * w2 j) * w1 j c) + (K4 * relu x) * q x c

/-- The barrier's cotangent: `2 · relu` where the barrier is active. -/
def gsel : EReal := if K0 < qn x - K20 then K1 * (K2 * relu x) else K0
/-- The gradient of the potential, as reverse-mode differentiation spells it. -/
def gradR (c : Fin 2) : EReal :=
  (q x c * gsel x + gsel x * q x c)
    + ∑ j : Fin 16, ((K1 * w2 j) * (K1 - hid x w1 b1 j) + ((K1 * w2 j) * (K1 - hid x w1 b1 j)) * hid x w1 b1 j) * w1 j c

/-! ## The step -/

end

section Step
variable (q p : Fin 2 → EReal) (s : EReal) (r vr u g : Fin 2 → EReal) (pt : EReal)

/-- The new momentum: damped, pushed down the gradient `g` and by the force `u`. -/
def pnew (c : Fin 2) : EReal := (p c - (g c + p c * K01) * K01) + u c * K01
/-- The new position. -/
def qnew (c : Fin 2) : EReal := q c + pnew p u g c * K01
/-- `|p|²`. -/
def psq : EReal := ∑ k : Fin 2, p k * p k
/-- The new scalar, from the kinetic term, the potential value `pt` and the damping. -/
def snew : EReal := s + (psq p - ((K05 * psq p + pt) + K01 * s)) * K01
/-- The resonator's new velocity and position. -/
def vrnew (c : Fin 2) : EReal := vr c + (((Km1 * r c) - (K02 * vr c)) + u c) * K01
def rnew (c : Fin 2) : EReal := r c + vrnew r vr u c * K01

/-- Five pieces of widths 2, 2, 1, 2, 2 laid side by side as a row of 9. -/
def cat (a b : Fin 2 → EReal) (m : EReal) (d e : Fin 2 → EReal) : Fin 9 → EReal := fun c =>
  if h : c.val < 2 then a ⟨c.val, h⟩
  else if h4 : c.val < 4 then b ⟨c.val - 2, by omega⟩
  else if c.val < 5 then m
  else if h7 : c.val < 7 then d ⟨c.val - 5, by omega⟩
  else e ⟨c.val - 7, by omega⟩

/-- The new row from the old row's fields, a gradient `g` and a potential value `pt`. -/
def step : Fin 9 → EReal :=
  cat (qnew q p u g) (pnew p u g) (snew p s pt) (rnew r vr u) (vrnew r vr u)

end Step

section
variable (x : Fin 9 → EReal) (u : Fin 2 → EReal) (w1 : Fin 16 → Fin 2 → EReal) (b1 w2 : Fin 16 → EReal) (b2 : EReal)

/-- The new row of `x`, for a gradient `g` and a potential value `pt`. -/
def out (g : Fin 2 → EReal) (pt : EReal) : Fin 9 → EReal := step (q x) (p x) (s x) (r x) (vr x) u g pt

/-- The new row with the hand-derived gradient. -/
def outK : Fin 9 → EReal := out x u (gradK x w1 b1 w2) (pot x w1 b1 w2 b2)
/-- The new row with the differentiated gradient. -/
def outR : Fin 9 → EReal := out x u (gradR x w1 b1 w2) (pot x w1 b1 w2 b2)

end

/-! ## The two gradients agree on finite data -/

/-- `tanh` of any extended real is a real. -/
theorem tanh_real (y : EReal) : ∃ t : ℝ, Ideal.tanh y = (t : EReal) := by
  induction y using EReal.rec with
  | bot => exact ⟨-1, by simp⟩
  | coe a => exact ⟨Real.tanh a, rfl⟩
  | top => exact ⟨1, by simp⟩

/-- One hidden unit: `(1 − h²) · ω` is `(1·ω)(1 − h) + (1·ω)(1 − h) · h`, for real `h` and `ω`. -/
theorem unit_law (h ω W : ℝ) :
    ((K1 - (h : EReal) * (h : EReal)) * (ω : EReal)) * (W : EReal)
      = ((K1 * (ω : EReal)) * (K1 - (h : EReal)) + ((K1 * (ω : EReal)) * (K1 - (h : EReal))) * (h : EReal)) * (W : EReal) := by
  rw [k1]
  simp only [← EReal.coe_mul, ← EReal.coe_sub, ← EReal.coe_add]
  congr 1; ring

/-- The barrier: `(4 · relu) · q` is `q · g + g · q`, for real `z = |q|² − 20` and real `q`. -/
theorem barrier_law (z qc : ℝ) :
    (K4 * max (z : EReal) K0) * (qc : EReal)
      = (qc : EReal) * (if K0 < (z : EReal) then K1 * (K2 * max (z : EReal) K0) else K0)
        + (if K0 < (z : EReal) then K1 * (K2 * max (z : EReal) K0) else K0) * (qc : EReal) := by
  rw [k0, k1, k2, k4]
  by_cases hz : (0 : ℝ) < z
  · have hz' : ((0 : ℝ) : EReal) < (z : EReal) := EReal.coe_lt_coe_iff.mpr hz
    rw [if_pos hz', max_eq_left hz'.le]
    simp only [← EReal.coe_mul, ← EReal.coe_add]
    congr 1; ring
  · have hz' : ¬ ((0 : ℝ) : EReal) < (z : EReal) := fun h => hz (EReal.coe_lt_coe_iff.mp h)
    rw [if_neg hz', max_eq_right (not_lt.mp hz')]
    simp only [← EReal.coe_mul, ← EReal.coe_add]
    congr 1; ring

/-- THE LAW: on a real row with real weights the hand-derived gradient is the differentiated one. -/
theorem gradK_eq_gradR (x : Fin 9 → EReal) (w1 : Fin 16 → Fin 2 → EReal) (b1 w2 : Fin 16 → EReal)
    (hx : ∀ c, ∃ t : ℝ, x c = (t : EReal)) (hw1 : ∀ j k, ∃ t : ℝ, w1 j k = (t : EReal))
    (hw2 : ∀ j, ∃ t : ℝ, w2 j = (t : EReal)) :
    gradK x w1 b1 w2 = gradR x w1 b1 w2 := by
  funext c
  choose xr hxr using hx
  choose w1r hw1r using hw1
  choose w2r hw2r using hw2
  have hq : ∀ k, q x k = ((xr ⟨k.val, by omega⟩ : ℝ) : EReal) := fun k => hxr _
  have hqn : qn x = ((∑ k : Fin 2, xr ⟨k.val, by omega⟩ * xr ⟨k.val, by omega⟩ : ℝ) : EReal) := by
    unfold qn
    rw [Fin.sum_univ_two, Fin.sum_univ_two, hq, hq]
    simp only [← EReal.coe_mul, ← EReal.coe_add]
  have hz : ∃ z : ℝ, qn x - K20 = (z : EReal) := ⟨_, by rw [hqn, k20, ← EReal.coe_sub]⟩
  obtain ⟨z, hz⟩ := hz
  unfold gradK gradR gsel relu
  rw [hz, hq c, add_comm]
  congr 1
  · exact barrier_law z _
  · refine Finset.sum_congr rfl fun j _ => ?_
    obtain ⟨h, hh⟩ := tanh_real ((∑ k : Fin 2, q x k * w1 j k) + b1 j)
    unfold hid
    rw [hh, hw2r j, hw1r j c]
    exact unit_law h _ _

/-- So the two spellings of the step produce the same row. -/
theorem outK_eq_outR (x : Fin 9 → EReal) (u : Fin 2 → EReal) (w1 : Fin 16 → Fin 2 → EReal) (b1 w2 : Fin 16 → EReal)
    (b2 : EReal) (hx : ∀ c, ∃ t : ℝ, x c = (t : EReal)) (hw1 : ∀ j k, ∃ t : ℝ, w1 j k = (t : EReal))
    (hw2 : ∀ j, ∃ t : ℝ, w2 j = (t : EReal)) :
    outK x u w1 b1 w2 b2 = outR x u w1 b1 w2 b2 := by
  unfold outK outR
  rw [gradK_eq_gradR x w1 b1 w2 hx hw1 hw2]

end Cert.Row

end
-- ==== Proof.Cat.lean ====
/-
  Five arrays laid side by side along the columns, read at an index.
-/
import Idealize.ShloMosaic.Lib.Pipeline.Value
import Idealize.ShloMosaic.Lib.ValueIdx
import Idealize.ShloMosaic.PureOps.Ideal
import proofs.«109629_j45964740002431_1_alg».proof.Proof.Row

noncomputable section
namespace Cert.Cat
open Idealize.ShloMosaic Idealize.ShloMosaic.ValueIdx

/-- The five pieces, each with its shape. -/
abbrev five {α : Type} {N : Nat} (A B : (⟨2, ![N, 2]⟩ : Shape).Idx → α) (S : (⟨2, ![N, 1]⟩ : Shape).Idx → α)
    (D E : (⟨2, ![N, 2]⟩ : Shape).Idx → α) : List ((s : Shape) × (s.Idx → α)) :=
  [⟨⟨2, ![N, 2]⟩, A⟩, ⟨⟨2, ![N, 2]⟩, B⟩, ⟨⟨2, ![N, 1]⟩, S⟩, ⟨⟨2, ![N, 2]⟩, D⟩, ⟨⟨2, ![N, 2]⟩, E⟩]

/-- A concatenation of five arrays of widths 2, 2, 1, 2, 2 along the columns, read at `(r, c)`: the piece whose span
    of columns holds `c`, at row `r` and at `c` less the widths before it. -/
theorem cat5_apply {N : Nat} (A B : (⟨2, ![N, 2]⟩ : Shape).Idx → EReal) (S : (⟨2, ![N, 1]⟩ : Shape).Idx → EReal)
    (D E : (⟨2, ![N, 2]⟩ : Shape).Idx → EReal)
    (h : Shape.Concatenates [(⟨2, ![N, 2]⟩ : Shape), ⟨2, ![N, 2]⟩, ⟨2, ![N, 1]⟩, ⟨2, ![N, 2]⟩, ⟨2, ![N, 2]⟩] ⟨2, ![N, 9]⟩ 1)
    (r : Fin N) (c : Fin 9) :
    concatenate (⟨2, ![N, 9]⟩ : Shape) 1 (five A B S D E) h (ix2 r c)
      = Cert.Row.cat (fun k => A (ix2 r k)) (fun k => B (ix2 r k)) (S (ix2 r (0 : Fin 1))) (fun k => D (ix2 r k)) (fun k => E (ix2 r k)) c := by
  unfold Cert.Row.cat
  have hoff : ∀ (w : Nat) (k : Fin w) (b : Fin 2), (b.cast (rfl : (2 : Nat) = 2)) ≠ (1 : Fin 2) →
      ((ix2 r k : (⟨2, ![N, w]⟩ : Shape).Idx) b).val = ((ix2 r c : (⟨2, ![N, 9]⟩ : Shape).Idx) (b.cast rfl)).val := by
    intro w k b hb
    match b with
    | ⟨0, _⟩ => rfl
    | ⟨1, _⟩ => exact absurd rfl hb
  by_cases h2 : c.val < 2
  · rw [dif_pos h2]
    exact concatenate_apply_piece 1 (five A B S D E) h (ix2 r c) 0 (by show 0 < 5; omega) _ A rfl rfl 0 rfl (ix2 r ⟨c.val, h2⟩) (hoff 2 _)
      (by show 0 + c.val = c.val; omega)
  rw [dif_neg h2]
  by_cases h4 : c.val < 4
  · rw [dif_pos h4]
    exact concatenate_apply_piece 1 (five A B S D E) h (ix2 r c) 1 (by show 1 < 5; omega) _ B rfl rfl 2 rfl (ix2 r ⟨c.val - 2, by omega⟩) (hoff 2 _)
      (by show 2 + (c.val - 2) = c.val; omega)
  rw [dif_neg h4]
  by_cases h5 : c.val < 5
  · rw [if_pos h5]
    exact concatenate_apply_piece 1 (five A B S D E) h (ix2 r c) 2 (by show 2 < 5; omega) _ S rfl rfl 4 rfl (ix2 r (0 : Fin 1)) (hoff 1 _)
      (by show 4 + 0 = c.val; omega)
  rw [if_neg h5]
  by_cases h7 : c.val < 7
  · rw [dif_pos h7]
    exact concatenate_apply_piece 1 (five A B S D E) h (ix2 r c) 3 (by show 3 < 5; omega) _ D rfl rfl 5 rfl (ix2 r ⟨c.val - 5, by omega⟩) (hoff 2 _)
      (by show 5 + (c.val - 5) = c.val; omega)
  rw [dif_neg h7]
  have h9 : c.val < 9 := c.isLt
  exact concatenate_apply_piece 1 (five A B S D E) h (ix2 r c) 4 (by show 4 < 5; omega) _ E rfl rfl 7 rfl (ix2 r ⟨c.val - 7, by omega⟩) (hoff 2 _)
    (by show 7 + (c.val - 7) = c.val; omega)

end Cert.Cat
end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«109629_j45964740002431_1_alg».proof.Proof.LibDotIdx
import proofs.«109629_j45964740002431_1_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.LibCols.lean ====
/-
  Rank-2 arrays read at `(p, q)` through three layout operations, generic in the extents: a slice of consecutive
  columns, a transpose, and one row laid down every row.
-/
import Idealize.ShloMosaic.Lib.ValueIdx
import Idealize.ShloMosaic.Lib.Pipeline.Value

noncomputable section

namespace Cert.LibCols

open Idealize.ShloMosaic Idealize.ShloMosaic.ValueIdx

/-- A slice of `w` columns starting at column `o`: at `(r, k)` it is the operand at `(r, o + k)`. -/
theorem slice_cols {α : Type} {N C w : Nat} (o : Nat) (x : (⟨2, ![N, C]⟩ : Shape).Idx → α)
    (h : (⟨2, ![N, C]⟩ : Shape).Slices ![0, o] ⟨2, ![N, w]⟩) (r : Fin N) (k : Fin w) (c : Fin C) (hc : c.val = o + k.val) :
    extractStridedSlice ⟨2, ![N, w]⟩ ![0, o] x h (ix2 r k) = x (ix2 r c) :=
  extractStridedSlice_apply ![0, o] x h (ix2 r k) (ix2 r c) (fun a => match a with
    | ⟨0, _⟩ => by show r.val = 0 + r.val; omega
    | ⟨1, _⟩ => hc)

/-- The transpose of an `[a, b]` array at `(j, i)` is the operand at `(i, j)`. -/
theorem transpose2_apply {α : Type} {a b : Nat} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) (fun bb => match bb with
    | ⟨0, _⟩ => rfl
    | ⟨1, _⟩ => rfl)

/-- One row laid down `m` rows: at `(p, q)` it is the row's entry `q`. -/
theorem bcastRow_apply {α : Type} {m n : Nat} (y : (⟨2, ![1, n]⟩ : Shape).Idx → α)
    (hb : (⟨2, ![1, n]⟩ : Shape).Broadcasts ⟨2, ![m, n]⟩) (p : Fin m) (q : Fin n) :
    broadcastTo ⟨2, ![m, n]⟩ y hb (ix2 p q) = y (ix2 (0 : Fin 1) q) :=
  broadcastTo_apply y hb (ix2 p q) (ix2 (0 : Fin 1) q) (by
    intro a
    match a with
    | ⟨0, _⟩ => rfl
    | ⟨1, _⟩ =>
      show q.val = if n = 1 then 0 else q.val
      split
      · have e : q.val < n := q.isLt; omega
      · rfl)

end Cert.LibCols

end
-- ==== Proof.KerRow.lean ====
/-
  The kernel body's arithmetic, read at an index.

  The body works on a block of 65536 rows.  Its stored value is, row by row, the step of `Row` with the hand-derived
  gradient: each intermediate value of the body (the slices of the state, the hidden layer, the barrier, the
  potential, the perceptron's gradient) is read here at row `r` as the corresponding function of that row alone, of
  the force's row, and of the (whole) weight arrays.  A matrix product into the zero accumulator is the plain sum
  over the contracted coordinate; a sum along the columns with the neutral accumulator is the plain sum of the row.
-/
import proofs.«109629_j45964740002431_1_alg».proof.Proof.Gen.KernelIdeal.Skeleton
import proofs.«109629_j45964740002431_1_alg».proof.Proof.Row
import proofs.«109629_j45964740002431_1_alg».proof.Proof.Cat
import proofs.«109629_j45964740002431_1_alg».proof.Proof.LibRowOps
import proofs.«109629_j45964740002431_1_alg».proof.Proof.LibCols
import Idealize.ShloMosaic.Lib.ValueIdx
import Idealize.ShloMosaic.Lib.Pipeline.Value
import Idealize.ShloMosaic.PureOps.Ideal.Laws

noncomputable section

namespace Cert.KerRow

open Idealize.ShloMosaic Idealize.ShloMosaic.ValueIdx Cert.KernelIdeal Cert.KernelIdeal.Gen Cert.LibCols

/-- The sum of the squares of a row of two, kept as one column. -/
theorem sumsq_at (v : FVec Ideal S65536x2 .f32) (r : Fin 65536) (u : Fin 1) :
    shapeCast S65536x1 (multiReduction .add [1] S65536 (mulf v v) 0x00000000#32 reduces_S65536x2_S65536 (.inl rfl) rfl)
        shapeCasts_S65536_S65536x1 (ix2 r u)
      = ∑ k : Fin 2, v (ix2 r k) * v (ix2 r k) := by
  refine (Cert.SupCon.Ker.shapeCast_a_a1_apply _ shapeCasts_S65536_S65536x1 r u).trans ?_
  exact Cert.LibRowOps.rowSum_kernel_apply (mulf v v) 0x00000000#32 reduces_S65536x2_S65536 (.inl rfl) rfl r

/-! ## The body's values at row `r` -/

section
variable (x0 : FVec Ideal S65536x9 .f32) (x2 : FVec Ideal S16x2 .f32) (x3 x4 : FVec Ideal S1x16 .f32) (x5 : FVec Ideal S1x1 .f32)
variable (r : Fin 65536)

theorem pay2_at (k : Fin 2) : k0_pay2 (F := Ideal) x0 (ix2 r k) = Cert.Row.q (fun c => x0 (ix2 r c)) k :=
  slice_cols 0 x0 slices_S65536x9_o0_0_S65536x2 r k ⟨k.val, by omega⟩ (by show k.val = 0 + k.val; omega)

theorem pay3_at (k : Fin 2) : k0_pay3 (F := Ideal) x0 (ix2 r k) = Cert.Row.p (fun c => x0 (ix2 r c)) k :=
  slice_cols 2 x0 slices_S65536x9_o0_2_S65536x2 r k ⟨2 + k.val, by omega⟩ rfl

theorem pay4_at : k0_pay4 (F := Ideal) x0 (ix2 r (0 : Fin 1)) = Cert.Row.s (fun c => x0 (ix2 r c)) :=
  slice_cols 4 x0 slices_S65536x9_o0_4_S65536x1 r (0 : Fin 1) ⟨4, by omega⟩ rfl

theorem pay5_at (k : Fin 2) : k0_pay5 (F := Ideal) x0 (ix2 r k) = Cert.Row.r (fun c => x0 (ix2 r c)) k :=
  slice_cols 5 x0 slices_S65536x9_o0_5_S65536x2 r k ⟨5 + k.val, by omega⟩ rfl

theorem pay6_at (k : Fin 2) : k0_pay6 (F := Ideal) x0 (ix2 r k) = Cert.Row.vr (fun c => x0 (ix2 r c)) k :=
  slice_cols 7 x0 slices_S65536x9_o0_7_S65536x2 r k ⟨7 + k.val, by omega⟩ rfl

/-- The hidden layer. -/
theorem pay7_at (j : Fin 16) :
    k0_pay7 (F := Ideal) x0 x2 x3 (ix2 r j)
      = Cert.Row.hid (fun c => x0 (ix2 r c)) (fun j k => x2 (ix2 j k)) (fun j => x3 (ix2 (0 : Fin 1) j)) j := by
  have e1 : matmul dot_S65536x2_S2x16_S65536x16_1_0_0_1_n_n none (k0_pay2 (F := Ideal) x0)
        (transpose S2x16 [1, 0] x2 transposes_S16x2_p1_0_S2x16) (constant S65536x16 .f32 0x00000000#32) (ix2 r j)
      = ∑ k : Fin 2, Cert.Row.q (fun c => x0 (ix2 r c)) k * x2 (ix2 j k) := by
    refine (DotIdx.matmul_plain_zero_apply _ none _ _ r j).trans ?_
    refine Finset.sum_congr rfl fun k _ => ?_
    rw [pay2_at, transpose2_apply]
  have e2 : broadcastTo S65536x16 (shapeCast S1x16 x3 shapeCasts_S1x16_S1x16) broadcasts_S1x16_S65536x16 (ix2 r j)
      = x3 (ix2 (0 : Fin 1) j) := by
    rw [bcastRow_apply, shapeCast_self]
  unfold k0_pay7 Cert.Row.hid
  show Ideal.tanh (_ + _) = _
  rw [e1, e2]

/-- The barrier. -/
theorem pay8_at : k0_pay8 (F := Ideal) x0 (ix2 r (0 : Fin 1)) = Cert.Row.relu (fun c => x0 (ix2 r c)) := by
  unfold k0_pay8 Cert.Row.relu Cert.Row.qn
  show max (_ - _) _ = _
  rw [sumsq_at]
  simp only [pay2_at]
  rfl

/-- The potential. -/
theorem pay9_at :
    k0_pay9 (F := Ideal) x0 x2 x3 x4 x5 (ix2 r (0 : Fin 1))
      = Cert.Row.pot (fun c => x0 (ix2 r c)) (fun j k => x2 (ix2 j k)) (fun j => x3 (ix2 (0 : Fin 1) j))
          (fun j => x4 (ix2 (0 : Fin 1) j)) (x5 (ix2 (0 : Fin 1) (0 : Fin 1))) := by
  have e1 : matmul dot_S65536x16_S16x1_S65536x1_1_0_0_1_n_n none (k0_pay7 (F := Ideal) x0 x2 x3)
        (transpose S16x1 [1, 0] x4 transposes_S1x16_p1_0_S16x1) (constant S65536x1 .f32 0x00000000#32) (ix2 r (0 : Fin 1))
      = ∑ j : Fin 16, Cert.Row.hid (fun c => x0 (ix2 r c)) (fun j k => x2 (ix2 j k)) (fun j => x3 (ix2 (0 : Fin 1) j)) j
          * x4 (ix2 (0 : Fin 1) j) := by
    refine (DotIdx.matmul_plain_zero_apply _ none _ _ r (0 : Fin 1)).trans ?_
    refine Finset.sum_congr rfl fun j _ => ?_
    rw [pay7_at, transpose2_apply]
  have e2 : broadcastTo S65536x1 (shapeCast S1x1 x5 shapeCasts_S1x1_S1x1) broadcasts_S1x1_S65536x1 (ix2 r (0 : Fin 1))
      = x5 (ix2 (0 : Fin 1) (0 : Fin 1)) := by
    rw [bcastRow_apply, shapeCast_self]
  unfold k0_pay9 Cert.Row.pot Cert.Row.mlp
  show (_ + _) + _ * _ = _
  rw [e1, e2, pay8_at]

/-- The perceptron's part of the gradient. -/
theorem pay10_at (c : Fin 2) :
    k0_pay10 (F := Ideal) x0 x2 x3 x4 (ix2 r c)
      = ∑ j : Fin 16, ((Ideal.ofBits .f32 0x3F800000#32
            - Cert.Row.hid (fun c => x0 (ix2 r c)) (fun j k => x2 (ix2 j k)) (fun j => x3 (ix2 (0 : Fin 1) j)) j
              * Cert.Row.hid (fun c => x0 (ix2 r c)) (fun j k => x2 (ix2 j k)) (fun j => x3 (ix2 (0 : Fin 1) j)) j)
          * x4 (ix2 (0 : Fin 1) j)) * x2 (ix2 j c) := by
  unfold k0_pay10
  refine (DotIdx.matmul_plain_zero_apply _ none _ _ r c).trans ?_
  refine Finset.sum_congr rfl fun j _ => ?_
  show ((_ - _ * _) * _) * _ = _
  rw [pay7_at, bcastRow_apply]
  rfl

/-- The barrier's part of the gradient, before the factor `q`. -/
theorem pay11_at :
    k0_pay11 (F := Ideal) x0 (ix2 r (0 : Fin 1)) = Ideal.ofBits .f32 0x40800000#32 * Cert.Row.relu (fun c => x0 (ix2 r c)) := by
  unfold k0_pay11
  show _ * _ = _
  rw [pay8_at]
  rfl

end

/-! ## The stored value -/

section Pieces
variable (v1 v2 v3 : FVec Ideal S65536x2 .f32) (v4 : FVec Ideal S65536x1 .f32) (v5 v6 : FVec Ideal S65536x2 .f32)
variable (v30 : FVec Ideal S65536x1 .f32) (v36 : FVec Ideal S65536x2 .f32) (v38 : FVec Ideal S65536x1 .f32)

/-- The scalar `0.1` along a block of two columns, and along one column. -/
abbrev tenth2 : FVec Ideal S65536x2 .f32 := broadcast S65536x2 (Scalar.ofBits (F := Ideal) .f32 0x3DCCCCCD#32)
abbrev tenth1 : FVec Ideal S65536x1 .f32 := broadcast S65536x1 (Scalar.ofBits (F := Ideal) .f32 0x3DCCCCCD#32)

/-- The five stored pieces as whole blocks: the new momentum, position, scalar, resonator velocity and position. -/
def pNew : FVec Ideal S65536x2 .f32 :=
  addf (subf v3 (mulf (addf (addf v36 (mulf (broadcastTo S65536x2 v38 broadcasts_S65536x1_S65536x2) v2)) (mulf v3 tenth2)) tenth2))
    (mulf v1 tenth2)
def qNew : FVec Ideal S65536x2 .f32 := addf v2 (mulf (pNew v1 v2 v3 v36 v38) tenth2)
def pSq : FVec Ideal S65536x1 .f32 :=
  shapeCast S65536x1 (multiReduction .add [1] S65536 (mulf v3 v3) 0x00000000#32 reduces_S65536x2_S65536 (.inl rfl) rfl)
    shapeCasts_S65536_S65536x1
def sNew : FVec Ideal S65536x1 .f32 :=
  addf v4 (mulf (subf (pSq v3) (addf (addf (mulf (broadcast S65536x1 (Scalar.ofBits (F := Ideal) .f32 0x3F000000#32)) (pSq v3)) v30)
    (mulf tenth1 v4))) tenth1)
def vrNew : FVec Ideal S65536x2 .f32 :=
  addf v6 (mulf (addf (subf (mulf (broadcast S65536x2 (Scalar.ofBits (F := Ideal) .f32 0xBF800000#32)) v5)
    (mulf (broadcast S65536x2 (Scalar.ofBits (F := Ideal) .f32 0x3E4CCCCD#32)) v6)) v1) tenth2)
def rNew : FVec Ideal S65536x2 .f32 := addf v5 (mulf (vrNew v1 v5 v6) tenth2)

set_option maxRecDepth 65536 in
/-- The stored value is the five pieces side by side. -/
theorem pay1_eq :
    k0_pay1 (F := Ideal) v1 v2 v3 v4 v5 v6 v30 v36 v38
      = concatenate S65536x9 1 [⟨S65536x2, qNew v1 v2 v3 v36 v38⟩, ⟨S65536x2, pNew v1 v2 v3 v36 v38⟩, ⟨S65536x1, sNew v3 v4 v30⟩,
          ⟨S65536x2, rNew v1 v5 v6⟩, ⟨S65536x2, vrNew v1 v5 v6⟩]
          concatenates_S65536x2_S65536x2_S65536x1_S65536x2_S65536x2_S65536x9_d1 := rfl

variable (r : Fin 65536)

theorem pNew_at (k : Fin 2) :
    pNew v1 v2 v3 v36 v38 (ix2 r k)
      = Cert.Row.pnew (fun k => v3 (ix2 r k)) (fun k => v1 (ix2 r k))
          (fun k => v36 (ix2 r k) + v38 (ix2 r (0 : Fin 1)) * v2 (ix2 r k)) k := by
  unfold pNew Cert.Row.pnew
  show (_ - ((_ + (_ * _)) + _ * _) * _) + _ * _ = _
  rw [Cert.SupCon.Ker.broadcastTo_a1_ab_apply]
  rfl

theorem qNew_at (k : Fin 2) :
    qNew v1 v2 v3 v36 v38 (ix2 r k)
      = Cert.Row.qnew (fun k => v2 (ix2 r k)) (fun k => v3 (ix2 r k)) (fun k => v1 (ix2 r k))
          (fun k => v36 (ix2 r k) + v38 (ix2 r (0 : Fin 1)) * v2 (ix2 r k)) k := by
  unfold qNew Cert.Row.qnew
  show _ + _ * _ = _
  rw [pNew_at]
  rfl

theorem sNew_at :
    sNew v3 v4 v30 (ix2 r (0 : Fin 1))
      = Cert.Row.snew (fun k => v3 (ix2 r k)) (v4 (ix2 r (0 : Fin 1))) (v30 (ix2 r (0 : Fin 1))) := by
  unfold sNew Cert.Row.snew Cert.Row.psq pSq
  show _ + (_ - ((_ * _ + _) + _ * _)) * _ = _
  rw [sumsq_at]
  rfl

theorem vrNew_at (k : Fin 2) :
    vrNew v1 v5 v6 (ix2 r k) = Cert.Row.vrnew (fun k => v5 (ix2 r k)) (fun k => v6 (ix2 r k)) (fun k => v1 (ix2 r k)) k := rfl

theorem rNew_at (k : Fin 2) :
    rNew v1 v5 v6 (ix2 r k) = Cert.Row.rnew (fun k => v5 (ix2 r k)) (fun k => v6 (ix2 r k)) (fun k => v1 (ix2 r k)) k := rfl

/-- The value the body stores, at `(r, c)`: the step of the row, from the row's fields `v2 … v6`, the force `v1`, the
    perceptron's gradient `v36`, four times the barrier `v38` and the potential `v30`. -/
theorem pay1_at (c : Fin 9) :
    k0_pay1 (F := Ideal) v1 v2 v3 v4 v5 v6 v30 v36 v38 (ix2 r c)
      = Cert.Row.step (fun k => v2 (ix2 r k)) (fun k => v3 (ix2 r k)) (v4 (ix2 r (0 : Fin 1))) (fun k => v5 (ix2 r k))
          (fun k => v6 (ix2 r k)) (fun k => v1 (ix2 r k))
          (fun k => v36 (ix2 r k) + v38 (ix2 r (0 : Fin 1)) * v2 (ix2 r k)) (v30 (ix2 r (0 : Fin 1))) c := by
  rw [pay1_eq]
  refine (Cert.Cat.cat5_apply (N := 65536) (qNew v1 v2 v3 v36 v38) (pNew v1 v2 v3 v36 v38) (sNew v3 v4 v30) (rNew v1 v5 v6)
    (vrNew v1 v5 v6) concatenates_S65536x2_S65536x2_S65536x1_S65536x2_S65536x2_S65536x9_d1 r c).trans ?_
  unfold Cert.Row.step
  simp only [qNew_at, pNew_at, sNew_at, rNew_at, vrNew_at]

end Pieces

/-- THE BODY AT A ROW: the stored block, at `(r, c)`, is the step of row `r` with the hand-derived gradient. -/
theorem body_at (x0 : FVec Ideal S65536x9 .f32) (x1 : FVec Ideal S65536x2 .f32) (x2 : FVec Ideal S16x2 .f32)
    (x3 x4 : FVec Ideal S1x16 .f32) (x5 : FVec Ideal S1x1 .f32) (r : Fin 65536) (c : Fin 9) :
    k0_pay1 (F := Ideal) x1 (k0_pay2 (F := Ideal) x0) (k0_pay3 (F := Ideal) x0) (k0_pay4 (F := Ideal) x0) (k0_pay5 (F := Ideal) x0) (k0_pay6 (F := Ideal) x0) (k0_pay9 (F := Ideal) x0 x2 x3 x4 x5)
        (k0_pay10 (F := Ideal) x0 x2 x3 x4) (k0_pay11 (F := Ideal) x0) (ix2 r c)
      = Cert.Row.outK (fun c => x0 (ix2 r c)) (fun k => x1 (ix2 r k)) (fun j k => x2 (ix2 j k))
          (fun j => x3 (ix2 (0 : Fin 1) j)) (fun j => x4 (ix2 (0 : Fin 1) j)) (x5 (ix2 (0 : Fin 1) (0 : Fin 1))) c := by
  rw [pay1_at]
  unfold Cert.Row.outK Cert.Row.out Cert.Row.gradK
  simp only [pay2_at, pay3_at, pay4_at, pay5_at, pay6_at, pay9_at, pay10_at, pay11_at]

end Cert.KerRow

end
-- ==== Proof.Spec.lean ====
/-
  The result array as one function of the argument arrays.

  Row `i 0` of the result is the step (`Row`) of row `i 0` of the state `X` under row `i 0` of the force `U`, with the
  weights `W1` (16 × 2), `W2` (1 × 16) and the biases `B1` (16), `B2` (1).  The kernel receives the biases reshaped to
  one row; read at an index, the reshaped bias is the bias.
-/
import proofs.«109629_j45964740002431_1_alg».proof.Proof.Row
import Idealize.ShloMosaic.Lib.ValueIdx
import Idealize.ShloMosaic.Lib.Pipeline.Value

noncomputable section

namespace Cert.Spec

open Idealize.ShloMosaic Idealize.ShloMosaic.ValueIdx

/-- The output array, with the hand-derived gradient and the biases given as one-row arrays. -/
def G (X : (⟨2, ![4194304, 9]⟩ : Shape).Idx → EReal) (U : (⟨2, ![4194304, 2]⟩ : Shape).Idx → EReal)
    (W1 : (⟨2, ![16, 2]⟩ : Shape).Idx → EReal) (B1 : (⟨2, ![1, 16]⟩ : Shape).Idx → EReal)
    (W2 : (⟨2, ![1, 16]⟩ : Shape).Idx → EReal) (B2 : (⟨2, ![1, 1]⟩ : Shape).Idx → EReal) :
    (⟨2, ![4194304, 9]⟩ : Shape).Idx → EReal := fun i =>
  Cert.Row.outK (fun c => X (ix2 (⟨(i 0).val, (i 0).isLt⟩ : Fin 4194304) c))
    (fun k => U (ix2 (⟨(i 0).val, (i 0).isLt⟩ : Fin 4194304) k)) (fun j k => W1 (ix2 j k))
    (fun j => B1 (ix2 (0 : Fin 1) j)) (fun j => W2 (ix2 (0 : Fin 1) j)) (B2 (ix2 (0 : Fin 1) (0 : Fin 1)))
    (⟨(i 1).val, (i 1).isLt⟩ : Fin 9)

/-- At `(r, c)` it is the step of row `r`. -/
theorem G_at (X : (⟨2, ![4194304, 9]⟩ : Shape).Idx → EReal) (U : (⟨2, ![4194304, 2]⟩ : Shape).Idx → EReal)
    (W1 : (⟨2, ![16, 2]⟩ : Shape).Idx → EReal) (B1 : (⟨2, ![1, 16]⟩ : Shape).Idx → EReal)
    (W2 : (⟨2, ![1, 16]⟩ : Shape).Idx → EReal) (B2 : (⟨2, ![1, 1]⟩ : Shape).Idx → EReal) (r : Fin 4194304) (c : Fin 9) :
    G X U W1 B1 W2 B2 (ix2 r c)
      = Cert.Row.outK (fun c => X (ix2 r c)) (fun k => U (ix2 r k)) (fun j k => W1 (ix2 j k))
          (fun j => B1 (ix2 (0 : Fin 1) j)) (fun j => W2 (ix2 (0 : Fin 1) j)) (B2 (ix2 (0 : Fin 1) (0 : Fin 1))) c := rfl

/-- A vector of `n` reshaped to one row reads, at `(0, q)`, its entry `q`. -/
theorem oneRow_apply {α : Type} {n : Nat} (x : (⟨1, ![n]⟩ : Shape).Idx → α)
    (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

end Cert.Spec

end
-- ==== Proof.Blocks.lean ====
/-
  From blocks to the array.

  The output array is cut into 64 blocks of 65536 rows; grid point `t` reads block `t` of the state and of the force,
  the whole weight arrays, and writes block `t` of the output.  Since every row of the output depends only on the same
  row of the inputs, what point `t` writes is block `t` of ONE whole-array function `G` of the argument arrays — the
  step of each row with the hand-derived gradient — and, the blocks tiling the array, the array ends holding `G`.
-/
import proofs.«109629_j45964740002431_1_alg».proof.Proof.Gen.KernelIdeal.Value
import proofs.«109629_j45964740002431_1_alg».proof.Proof.KerRow
import proofs.«109629_j45964740002431_1_alg».proof.Proof.Spec
import Idealize.ShloMosaic.Lib.Pipeline.Value
import Idealize.ShloMosaic.Lib.ValueIdx
import Idealize.ShloMosaic.Lib.StableHlo.Run

set_option maxRecDepth 16384

noncomputable section

namespace Cert.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the state's and the force's blocks move with the output's along the rows, the
    weights' and biases' blocks stay at the origin, and the output's block index along the rows is below 64. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 63 :=
  (by decide +kernel : ∀ t : Fin grid0.N, _)

/-- Every block of rows is some point's. -/
theorem idx_onto : ∀ q0 : Fin 64, ∃ t : Fin cfg0.N, win0_6.index t = ![q0.val, 0] :=
  (by decide +kernel : ∀ q0 : Fin 64, ∃ t : Fin grid0.N, win0_6.index t = ![q0.val, 0])

/-- WHAT POINT `t` WRITES BACK is block `t` of `G` of the arrays as the region finds them. -/
theorem flushed_eq (c : Dev nD) (t : Fin cfg0.N) :
    (dats m 0 c).flushed 6 t = ((cfg0.win 6).blk t).view.read (Elt Ideal)
      (Cert.Spec.G (V m c main_arg0) (V m c main_arg1) (V m c main_arg2) (V m c main_v0) (V m c main_arg4) (V m c main_v1)) := by
  show (cfg0.win 6).cut (grid0.coords t) ((dats m 0 c).after 6 t) = _
  rw [after0_6]
  unfold out0_6
  rw [View.canon_unit_zero hz]
  simp only [View.ld_unit_zero (S := S65536x9) hz, View.ld_unit_zero (S := S65536x2) hz, View.ld_unit_zero (S := S16x2) hz,
    View.ld_unit_zero (S := S1x16) hz, View.ld_unit_zero (S := S1x1) hz]
  obtain ⟨e00, e01, e10, e11, e20, e21, e30, e31, e40, e41, e50, e51, e61, e60⟩ := idx_facts t
  funext j
  obtain ⟨r, cc, rfl⟩ : ∃ (r : Fin 65536) (cc : Fin 9), j = ix2 r cc := ⟨j 0, j 1, eq_ix2 j⟩
  refine (Cert.KerRow.body_at (iblk m c 0 t) (iblk m c 1 t) (iblk m c 2 t) (iblk m c 3 t) (iblk m c 4 t) (iblk m c 5 t) r cc).trans ?_
  have hR : win0_6.index t (0 : Fin 2) * 65536 + r.val < 4194304 := by have := r.isLt; omega
  have hemb : ((cfg0.win 6).blk t).view.emb (ix2 r cc)
      = ix2 (⟨win0_6.index t (0 : Fin 2) * 65536 + r.val, hR⟩ : Fin 4194304) cc := by
    funext a; apply Fin.ext
    match a with
    | ⟨0, _⟩ => show win0_6.index t (0 : Fin 2) * 65536 + 1 * r.val = win0_6.index t (0 : Fin 2) * 65536 + r.val; omega
    | ⟨1, _⟩ => show win0_6.index t (1 : Fin 2) * 9 + 1 * cc.val = cc.val; omega
  have h0 : ∀ c' : Fin 9, iblk m c 0 t (ix2 r c')
      = V m c main_arg0 (ix2 (⟨win0_6.index t (0 : Fin 2) * 65536 + r.val, hR⟩ : Fin 4194304) c') := by
    intro c'
    show V m c main_arg0 (((cfg0.win 0).blk t).view.emb (ix2 r c')) = _
    refine congrArg _ (funext fun a => Fin.ext ?_)
    match a with
    | ⟨0, _⟩ => show win0_0.index t (0 : Fin 2) * 65536 + 1 * r.val = win0_6.index t (0 : Fin 2) * 65536 + r.val; omega
    | ⟨1, _⟩ => show win0_0.index t (1 : Fin 2) * 9 + 1 * c'.val = c'.val; omega
  have h1 : ∀ k : Fin 2, iblk m c 1 t (ix2 r k)
      = V m c main_arg1 (ix2 (⟨win0_6.index t (0 : Fin 2) * 65536 + r.val, hR⟩ : Fin 4194304) k) := by
    intro k
    show V m c main_arg1 (((cfg0.win 1).blk t).view.emb (ix2 r k)) = _
    refine congrArg _ (funext fun a => Fin.ext ?_)
    match a with
    | ⟨0, _⟩ => show win0_1.index t (0 : Fin 2) * 65536 + 1 * r.val = win0_6.index t (0 : Fin 2) * 65536 + r.val; omega
    | ⟨1, _⟩ => show win0_1.index t (1 : Fin 2) * 2 + 1 * k.val = k.val; omega
  have h2 : ∀ (j : Fin 16) (k : Fin 2), iblk m c 2 t (ix2 j k) = V m c main_arg2 (ix2 j k) := by
    intro j k
    show V m c main_arg2 (((cfg0.win 2).blk t).view.emb (ix2 j k)) = _
    refine congrArg _ (funext fun a => Fin.ext ?_)
    match a with
    | ⟨0, _⟩ => show win0_2.index t (0 : Fin 2) * 16 + 1 * j.val = j.val; omega
    | ⟨1, _⟩ => show win0_2.index t (1 : Fin 2) * 2 + 1 * k.val = k.val; omega
  have h3 : ∀ j : Fin 16, iblk m c 3 t (ix2 (0 : Fin 1) j) = V m c main_v0 (ix2 (0 : Fin 1) j) := by
    intro j
    show V m c main_v0 (((cfg0.win 3).blk t).view.emb (ix2 (0 : Fin 1) j)) = _
    refine congrArg _ (funext fun a => Fin.ext ?_)
    match a with
    | ⟨0, _⟩ => show win0_3.index t (0 : Fin 2) * 1 + 1 * 0 = 0; omega
    | ⟨1, _⟩ => show win0_3.index t (1 : Fin 2) * 16 + 1 * j.val = j.val; omega
  have h4 : ∀ j : Fin 16, iblk m c 4 t (ix2 (0 : Fin 1) j) = V m c main_arg4 (ix2 (0 : Fin 1) j) := by
    intro j
    show V m c main_arg4 (((cfg0.win 4).blk t).view.emb (ix2 (0 : Fin 1) j)) = _
    refine congrArg _ (funext fun a => Fin.ext ?_)
    match a with
    | ⟨0, _⟩ => show win0_4.index t (0 : Fin 2) * 1 + 1 * 0 = 0; omega
    | ⟨1, _⟩ => show win0_4.index t (1 : Fin 2) * 16 + 1 * j.val = j.val; omega
  have h5 : iblk m c 5 t (ix2 (0 : Fin 1) (0 : Fin 1)) = V m c main_v1 (ix2 (0 : Fin 1) (0 : Fin 1)) := by
    show V m c main_v1 (((cfg0.win 5).blk t).view.emb (ix2 (0 : Fin 1) (0 : Fin 1))) = _
    refine congrArg _ (funext fun a => Fin.ext ?_)
    match a with
    | ⟨0, _⟩ => show win0_5.index t (0 : Fin 2) * 1 + 1 * 0 = 0; omega
    | ⟨1, _⟩ => show win0_5.index t (1 : Fin 2) * 1 + 1 * 0 = 0; omega
  show _ = Cert.Spec.G (V m c main_arg0) (V m c main_arg1) (V m c main_arg2) (V m c main_v0) (V m c main_arg4) (V m c main_v1)
    (((cfg0.win 6).blk t).view.emb (ix2 r cc))
  rw [hemb, Cert.Spec.G_at]
  simp only [h0, h1, h2, h3, h4, h5]

/-- An index of the array is in point `t`'s block iff each coordinate is in the block's range on its axis. -/
theorem mem_blk (t : Fin cfg0.N) (i : S4194304x9.Idx) :
    i ∈ ((cfg0.win 6).blk t).view.set ↔ ∀ a : Fin 2, win0_6.index t a * S65536x9.size a ≤ (i a).val
      ∧ (i a).val < win0_6.index t a * S65536x9.size a + S65536x9.size a := by
  show i ∈ ((View.whole main_v2).slice (win0_6.rect t)).set ↔ _
  rw [View.set_slice_whole, Rect.mem_set_unit]
  exact Iff.rfl

/-- The blocks tile the array: row `ρ` is in the block of the point whose index is `ρ / 65536`. -/
theorem cover (i : S4194304x9.Idx) :
    ∃ t : Fin cfg0.N, (cfg0.win 6).flush t = true ∧ i ∈ ((cfg0.win 6).blk t).view.set := by
  have hi0 : (i 0).val < 4194304 := (i 0).isLt
  have hi1 : (i 1).val < 9 := (i 1).isLt
  obtain ⟨t, ht⟩ := idx_onto ⟨(i 0).val / 65536, by omega⟩
  have q0 : win0_6.index t (0 : Fin 2) = (i 0).val / 65536 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 65536 ≤ (i 0).val ∧ (i 0).val < win0_6.index t (0 : Fin 2) * 65536 + 65536
    omega
  | ⟨1, _⟩ =>
    show win0_6.index t (1 : Fin 2) * 9 ≤ (i 1).val ∧ (i 1).val < win0_6.index t (1 : Fin 2) * 9 + 9
    omega

/-- The two biases as the region finds them: reshaped to one row by the host before the call. -/
theorem V_main_v0 (c : Dev nD) :
    (V m c main_v0 : S1x16.Idx → Elt Ideal .f32)
      = shapeCast S1x16 (m ((c : Thread nD τ).loc main_arg3) : S16.Idx → Elt Ideal .f32) shapeCasts_S16_S1x16 := by
  dsimp only [Gen.V, Gen.hostOps0]; after_results; rfl
theorem V_main_v1 (c : Dev nD) :
    (V m c main_v1 : S1x1.Idx → Elt Ideal .f32)
      = shapeCast S1x1 (m ((c : Thread nD τ).loc main_arg5) : S1.Idx → Elt Ideal .f32) shapeCasts_S1_S1x1 := by
  dsimp only [Gen.V, Gen.hostOps0]; after_results; rfl

/-- THE ARRAY after the run: `G` of the argument arrays. -/
theorem final (c : Dev nD) :
    (dats m 0 c).arrAt 6 cfg0.N
      = Cert.Spec.G (m ((c : Thread nD τ).loc main_arg0)) (m ((c : Thread nD τ).loc main_arg1))
          (m ((c : Thread nD τ).loc main_arg2))
          (shapeCast S1x16 (m ((c : Thread nD τ).loc main_arg3) : S16.Idx → Elt Ideal .f32) shapeCasts_S16_S1x16)
          (m ((c : Thread nD τ).loc main_arg4))
          (shapeCast S1x1 (m ((c : Thread nD τ).loc main_arg5) : S1.Idx → Elt Ideal .f32) shapeCasts_S1_S1x1) := by
  rw [(dats m 0 c).arrAt_eq_of_cover 6 _ (fun t _ => flushed_eq m c t) cover,
    V_main_arg0, V_main_arg1, V_main_arg2, V_main_arg4, V_main_v0, V_main_v1]

/-- The kernel's run, read: the result array ends at `G` of the argument arrays, the arguments unchanged. -/
theorem run : θ_run defs (onTc (τ := τ) (main (F := Ideal))) ⟨m, fun _ => 0, ρ⟩ fun r => ∀ c : Dev nD,
      r.2.mem ((c : Thread nD τ).loc main_v2)
        = Cert.Spec.G (m ((c : Thread nD τ).loc main_arg0)) (m ((c : Thread nD τ).loc main_arg1))
          (m ((c : Thread nD τ).loc main_arg2))
          (shapeCast S1x16 (m ((c : Thread nD τ).loc main_arg3) : S16.Idx → Elt Ideal .f32) shapeCasts_S16_S1x16)
          (m ((c : Thread nD τ).loc main_arg4))
          (shapeCast S1x1 (m ((c : Thread nD τ).loc main_arg5) : S1.Idx → Elt Ideal .f32) shapeCasts_S1_S1x1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.Blocks

end
-- ==== Proof.RefRow.lean ====
/-
  The reference program's result at row r, column c, read one operation at a time: the columns of the row are sliced
  into position q, momentum p, scalar s, resonator position and velocity; the two-layer perceptron and the barrier
  give the potential; reverse-mode differentiation gives its gradient; one explicit Euler step gives the five new
  pieces, which the last operation lays side by side. Every float literal stays the binary word the program spells.
-/
import proofs.«109629_j45964740002431_1_alg».proof.Proof.Gen.ReferenceIdeal.Read
import proofs.«109629_j45964740002431_1_alg».proof.Proof.Row
import proofs.«109629_j45964740002431_1_alg».proof.Proof.Cat
import Idealize.ShloMosaic.Lib.ValueIdx
import Idealize.ShloMosaic.PureOps.Ideal.Laws

noncomputable section

namespace Cert.RefRow

open Idealize.ShloMosaic Idealize.ShloMosaic.ValueIdx Cert.ReferenceIdeal Cert.ReferenceIdeal.Read

variable (X : (⟨S4194304x9, .f32⟩ : BufTy).Contents (Elt Ideal)) (U : (⟨S4194304x2, .f32⟩ : BufTy).Contents (Elt Ideal))
  (W1 : (⟨S16x2, .f32⟩ : BufTy).Contents (Elt Ideal)) (B1 : (⟨S16, .f32⟩ : BufTy).Contents (Elt Ideal))
  (W2 : (⟨S1x16, .f32⟩ : BufTy).Contents (Elt Ideal)) (B2 : (⟨S1, .f32⟩ : BufTy).Contents (Elt Ideal))

/-- Row r of the state array, the force's row r, and the weights by their coordinates. -/
abbrev xr (r : Fin 4194304) : Fin 9 → EReal := fun c' => X (ix2 r c')
abbrev ur (r : Fin 4194304) : Fin 2 → EReal := fun k => U (ix2 r k)
abbrev w1 : Fin 16 → Fin 2 → EReal := fun j k => W1 (ix2 j k)
abbrev b1 : Fin 16 → EReal := fun j => B1 (ix1 j)
abbrev w2 : Fin 16 → EReal := fun j => W2 (ix2 (0 : Fin 1) j)
abbrev b2 : EReal := B2 (ix1 (0 : Fin 1))

/-- Two rank-2 indices with the same coordinates are equal. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-! ## The row's five pieces -/

theorem s0 (r : Fin 4194304) (k : Fin 2) : val_main_v0 (F := Ideal) X (ix2 r k) = Cert.Row.q (xr X r) k := by
  rw [val_main_v0_apply]; unfold Cert.Row.q
  exact congrArg X (by idx2)
theorem s1 (r : Fin 4194304) (k : Fin 2) : val_main_v1 (F := Ideal) X (ix2 r k) = Cert.Row.p (xr X r) k := by
  rw [val_main_v1_apply]; unfold Cert.Row.p
  exact congrArg X (by idx2)
theorem s2 (r : Fin 4194304) : val_main_v2 (F := Ideal) X (ix2 r (0 : Fin 1)) = Cert.Row.s (xr X r) := by
  rw [val_main_v2_apply]; unfold Cert.Row.s
  exact congrArg X (by idx2)
theorem s3 (r : Fin 4194304) (k : Fin 2) : val_main_v3 (F := Ideal) X (ix2 r k) = Cert.Row.r (xr X r) k := by
  rw [val_main_v3_apply]; unfold Cert.Row.r
  exact congrArg X (by idx2)
theorem s4 (r : Fin 4194304) (k : Fin 2) : val_main_v4 (F := Ideal) X (ix2 r k) = Cert.Row.vr (xr X r) k := by
  rw [val_main_v4_apply]; unfold Cert.Row.vr
  exact congrArg X (by idx2)

/-! ## The perceptron -/

theorem s5 (k : Fin 2) (j : Fin 16) : val_main_v5 (F := Ideal) W1 (ix2 k j) = w1 W1 j k := by
  rw [val_main_v5_apply]
  exact congrArg W1 (by idx2)
theorem s6 (r : Fin 4194304) (j : Fin 16) :
    val_main_v6 (F := Ideal) X W1 (ix2 r j) = ∑ k : Fin 2, Cert.Row.q (xr X r) k * w1 W1 j k := by
  rw [val_main_v6_apply]
  refine Finset.sum_congr rfl fun k _ => ?_
  rw [show lidx_main_v6 (ix2 r j) k = ix2 r k by idx2, show ridx_main_v6 (ix2 r j) k = ix2 k j by idx2, s0, s5]
theorem s8 (r : Fin 4194304) (j : Fin 16) : val_main_v8 (F := Ideal) B1 (ix2 r j) = b1 B1 j := by
  rw [val_main_v8_apply, val_main_v7_apply]
  exact congrArg B1 (by idx1)
theorem s10 (r : Fin 4194304) (j : Fin 16) :
    val_main_v10 (F := Ideal) X W1 B1 (ix2 r j) = Cert.Row.hid (xr X r) (w1 W1) (b1 B1) j := by
  rw [val_main_v10_apply, val_main_v9_apply, s6, s8]; rfl
theorem c11 (i : S4194304x16.Idx) : val_main_v11 (F := Ideal) i = Ideal.ofBits .f32 0x3F800000#32 :=
  val_main_v11_apply i
theorem s12 (r : Fin 4194304) (j : Fin 16) :
    val_main_v12 (F := Ideal) X W1 B1 (ix2 r j)
      = Ideal.ofBits .f32 0x3F800000#32 - Cert.Row.hid (xr X r) (w1 W1) (b1 B1) j := by
  rw [val_main_v12_apply, c11, s10]; rfl
theorem s13 (j : Fin 16) : val_main_v13 (F := Ideal) W2 (ix2 j (0 : Fin 1)) = w2 W2 j := by
  rw [val_main_v13_apply]
  exact congrArg W2 (by idx2)
theorem s14 (r : Fin 4194304) :
    val_main_v14 (F := Ideal) X W1 B1 W2 (ix2 r (0 : Fin 1))
      = ∑ j : Fin 16, Cert.Row.hid (xr X r) (w1 W1) (b1 B1) j * w2 W2 j := by
  rw [val_main_v14_apply]
  refine Finset.sum_congr rfl fun j _ => ?_
  rw [show lidx_main_v14 (ix2 r (0 : Fin 1)) j = ix2 r j by idx2,
    show ridx_main_v14 (ix2 r (0 : Fin 1)) j = ix2 j (0 : Fin 1) by idx2, s10, s13]
theorem s16 (r : Fin 4194304) : val_main_v16 (F := Ideal) B2 (ix2 r (0 : Fin 1)) = b2 B2 := by
  rw [val_main_v16_apply, val_main_v15_apply]
  exact congrArg B2 (by idx1)
theorem s17 (r : Fin 4194304) :
    val_main_v17 (F := Ideal) X W1 B1 W2 B2 (ix2 r (0 : Fin 1))
      = Cert.Row.mlp (xr X r) (w1 W1) (b1 B1) (w2 W2) (b2 B2) := by
  rw [val_main_v17_apply, s14, s16]; rfl

/-! ## The barrier -/

theorem s18 (r : Fin 4194304) (k : Fin 2) :
    val_main_v18 (F := Ideal) X (ix2 r k) = Cert.Row.q (xr X r) k * Cert.Row.q (xr X r) k := by
  rw [val_main_v18_apply, s0]; rfl
theorem s19 (r : Fin 4194304) : val_main_v19 (F := Ideal) X (ix1 r) = Cert.Row.qn (xr X r) := by
  rw [val_main_v19_apply]
  show Ideal.ofBits .f32 0x00000000#32 + _ = _
  rw [Ideal.ofBits_zero_f32, zero_add]; unfold Cert.Row.qn
  refine Finset.sum_congr rfl fun k _ => ?_
  rw [show idx_main_v19 (ix1 r) k = ix2 r k by idx2, s18]
theorem s20 (r : Fin 4194304) : val_main_v20 (F := Ideal) X (ix2 r (0 : Fin 1)) = Cert.Row.qn (xr X r) := by
  rw [val_main_v20_apply, show idx_main_v20 (ix2 r (0 : Fin 1)) = ix1 r by idx1, s19]
theorem c21 (i : S4194304x1.Idx) : val_main_v21 (F := Ideal) i = Ideal.ofBits .f32 0x41A00000#32 :=
  val_main_v21_apply i
theorem s22 (r : Fin 4194304) :
    val_main_v22 (F := Ideal) X (ix2 r (0 : Fin 1)) = Cert.Row.qn (xr X r) - Ideal.ofBits .f32 0x41A00000#32 := by
  rw [val_main_v22_apply, s20, c21]; rfl
theorem c23 (i : S4194304x1.Idx) : val_main_call0_v0 (F := Ideal) i = Ideal.ofBits .f32 0x00000000#32 :=
  val_main_call0_v0_apply i
theorem s23 (r : Fin 4194304) : val_main_v23 (F := Ideal) X (ix2 r (0 : Fin 1)) = Cert.Row.relu (xr X r) := by
  rw [val_main_v23_apply, s22, c23]; rfl
theorem c24 (i : S4194304x1.Idx) : val_main_v24 (F := Ideal) i = Ideal.ofBits .f32 0x00000000#32 :=
  val_main_v24_apply i
theorem s25 (r : Fin 4194304) :
    val_main_v25 (F := Ideal) X (ix2 r (0 : Fin 1))
      = Ideal.cmp .ogt (Cert.Row.qn (xr X r) - Ideal.ofBits .f32 0x41A00000#32) (Ideal.ofBits .f32 0x00000000#32) := by
  rw [val_main_v25_apply, s22, c24]; rfl
theorem s27 (r : Fin 4194304) :
    val_main_v27 (F := Ideal) X (ix2 r (0 : Fin 1)) = Cert.Row.relu (xr X r) * Cert.Row.relu (xr X r) := by
  rw [val_main_v27_apply, s23]; rfl
theorem c28 (i : S4194304x1.Idx) : val_main_v28 (F := Ideal) i = Ideal.ofBits .f32 0x40000000#32 :=
  val_main_v28_apply i
theorem s29 (r : Fin 4194304) :
    val_main_v29 (F := Ideal) X (ix2 r (0 : Fin 1)) = Ideal.ofBits .f32 0x40000000#32 * Cert.Row.relu (xr X r) := by
  rw [val_main_v29_apply, s23, c28]; rfl
/-- The potential at row r. -/
theorem s30 (r : Fin 4194304) :
    val_main_v30 (F := Ideal) X W1 B1 W2 B2 (ix2 r (0 : Fin 1))
      = Cert.Row.pot (xr X r) (w1 W1) (b1 B1) (w2 W2) (b2 B2) := by
  rw [val_main_v30_apply, s17, s27]; rfl

/-! ## The gradient, as differentiation spells it -/

theorem c32 (i : S4194304x1.Idx) : val_main_v32 (F := Ideal) i = Ideal.ofBits .f32 0x3F800000#32 :=
  val_main_v32_apply i
theorem s33 (r : Fin 4194304) :
    val_main_v33 (F := Ideal) X (ix2 r (0 : Fin 1))
      = Ideal.ofBits .f32 0x3F800000#32 * (Ideal.ofBits .f32 0x40000000#32 * Cert.Row.relu (xr X r)) := by
  rw [val_main_v33_apply, s29, c32]; rfl
theorem c34 (i : S4194304x1.Idx) : val_main_v34 (F := Ideal) i = Ideal.ofBits .f32 0x00000000#32 :=
  val_main_v34_apply i
/-- A select on "z is above k" is the if on k < z. -/
theorem select_ogt {α : Type} (z k : EReal) (a b : α) :
    Scalar.select (Ideal.cmp .ogt z k) a b = if k < z then a else b := by
  by_cases h : k < z
  · rw [if_pos h]
    have e : Ideal.cmp .ogt z k = 1#1 := by
      show BitVec.ofBool (decide (k < z)) = 1#1
      rw [decide_eq_true h]; rfl
    rw [e, select_one]
  · rw [if_neg h]
    have e : Ideal.cmp .ogt z k = 0#1 := by
      show BitVec.ofBool (decide (k < z)) = 0#1
      rw [decide_eq_false h]; rfl
    rw [e, select_zero]
theorem s35 (r : Fin 4194304) : val_main_v35 (F := Ideal) X (ix2 r (0 : Fin 1)) = Cert.Row.gsel (xr X r) := by
  rw [val_main_v35_apply, s25, s33, c34, select_ogt]; rfl
theorem s36 (r : Fin 4194304) : val_main_v36 (F := Ideal) X (ix1 r) = Cert.Row.gsel (xr X r) := by
  rw [val_main_v36_apply]
  show Ideal.ofBits .f32 0x00000000#32 + _ = _
  rw [Ideal.ofBits_zero_f32, zero_add, Fin.sum_univ_one,
    show idx_main_v36 (ix1 r) (0 : Fin 1) = ix2 r (0 : Fin 1) by idx2, s35]
theorem s37 (r : Fin 4194304) (c : Fin 2) : val_main_v37 (F := Ideal) X (ix2 r c) = Cert.Row.gsel (xr X r) := by
  rw [val_main_v37_apply, show idx_main_v37 (ix2 r c) = ix1 r by idx1, s36]
theorem s40 (r : Fin 4194304) (c : Fin 2) :
    val_main_v40 (F := Ideal) X (ix2 r c)
      = Cert.Row.q (xr X r) c * Cert.Row.gsel (xr X r) + Cert.Row.gsel (xr X r) * Cert.Row.q (xr X r) c := by
  rw [val_main_v40_apply, val_main_v38_apply, val_main_v39_apply, s0, s37]; rfl
theorem s41 (r : Fin 4194304) (j : Fin 16) :
    val_main_v41 (F := Ideal) W2 (ix2 r j) = Ideal.ofBits .f32 0x3F800000#32 * w2 W2 j := by
  rw [val_main_v41_apply, Fin.sum_univ_one, c32,
    show ridx_main_v41 (ix2 r j) (0 : Fin 1) = ix2 j (0 : Fin 1) by idx2, s13]
theorem s44 (r : Fin 4194304) (j : Fin 16) :
    val_main_v44 (F := Ideal) X W1 B1 W2 (ix2 r j)
      = (Ideal.ofBits .f32 0x3F800000#32 * w2 W2 j)
            * (Ideal.ofBits .f32 0x3F800000#32 - Cert.Row.hid (xr X r) (w1 W1) (b1 B1) j)
          + ((Ideal.ofBits .f32 0x3F800000#32 * w2 W2 j)
            * (Ideal.ofBits .f32 0x3F800000#32 - Cert.Row.hid (xr X r) (w1 W1) (b1 B1) j))
            * Cert.Row.hid (xr X r) (w1 W1) (b1 B1) j := by
  rw [val_main_v44_apply, val_main_v43_apply, val_main_v42_apply, s41, s12, s10]; rfl
theorem s45 (r : Fin 4194304) (c : Fin 2) :
    val_main_v45 (F := Ideal) X W1 B1 W2 (ix2 r c)
      = ∑ j : Fin 16, ((Ideal.ofBits .f32 0x3F800000#32 * w2 W2 j)
            * (Ideal.ofBits .f32 0x3F800000#32 - Cert.Row.hid (xr X r) (w1 W1) (b1 B1) j)
          + ((Ideal.ofBits .f32 0x3F800000#32 * w2 W2 j)
            * (Ideal.ofBits .f32 0x3F800000#32 - Cert.Row.hid (xr X r) (w1 W1) (b1 B1) j))
            * Cert.Row.hid (xr X r) (w1 W1) (b1 B1) j) * w1 W1 j c := by
  rw [val_main_v45_apply]
  refine Finset.sum_congr rfl fun j _ => ?_
  rw [show lidx_main_v45 (ix2 r c) j = ix2 r j by idx2, show ridx_main_v45 (ix2 r c) j = ix2 c j by idx2, s44, s5]
/-- The gradient at row r. -/
theorem s46 (r : Fin 4194304) (c : Fin 2) :
    val_main_v46 (F := Ideal) X W1 B1 W2 (ix2 r c) = Cert.Row.gradR (xr X r) (w1 W1) (b1 B1) (w2 W2) c := by
  rw [val_main_v46_apply, s40, s45]; rfl

/-! ## The step: momentum and position -/

theorem c47 (i : S4194304x2.Idx) : val_main_v47 (F := Ideal) i = Ideal.ofBits .f32 0x3DCCCCCD#32 :=
  val_main_v47_apply i
theorem c50 (i : S4194304x2.Idx) : val_main_v50 (F := Ideal) i = Ideal.ofBits .f32 0x3DCCCCCD#32 :=
  val_main_v50_apply i
theorem c53 (i : S4194304x2.Idx) : val_main_v53 (F := Ideal) i = Ideal.ofBits .f32 0x3DCCCCCD#32 :=
  val_main_v53_apply i
theorem c56 (i : S4194304x2.Idx) : val_main_v56 (F := Ideal) i = Ideal.ofBits .f32 0x3DCCCCCD#32 :=
  val_main_v56_apply i
/-- The new momentum at row r. -/
theorem s55 (r : Fin 4194304) (c : Fin 2) :
    val_main_v55 (F := Ideal) X U W1 B1 W2 (ix2 r c)
      = Cert.Row.pnew (Cert.Row.p (xr X r)) (ur U r) (Cert.Row.gradR (xr X r) (w1 W1) (b1 B1) (w2 W2)) c := by
  rw [val_main_v55_apply, val_main_v52_apply, val_main_v51_apply, val_main_v49_apply, val_main_v48_apply,
    val_main_v54_apply, s1, s46, c47, c50, c53]; rfl
/-- The new position at row r. -/
theorem s58 (r : Fin 4194304) (c : Fin 2) :
    val_main_v58 (F := Ideal) X U W1 B1 W2 (ix2 r c)
      = Cert.Row.qnew (Cert.Row.q (xr X r)) (Cert.Row.p (xr X r)) (ur U r)
          (Cert.Row.gradR (xr X r) (w1 W1) (b1 B1) (w2 W2)) c := by
  rw [val_main_v58_apply, val_main_v57_apply, s0, s55, c56]; rfl

/-! ## The step: the scalar -/

theorem s59 (r : Fin 4194304) (k : Fin 2) :
    val_main_v59 (F := Ideal) X (ix2 r k) = Cert.Row.p (xr X r) k * Cert.Row.p (xr X r) k := by
  rw [val_main_v59_apply, s1]; rfl
theorem s60 (r : Fin 4194304) : val_main_v60 (F := Ideal) X (ix1 r) = Cert.Row.psq (Cert.Row.p (xr X r)) := by
  rw [val_main_v60_apply]
  show Ideal.ofBits .f32 0x00000000#32 + _ = _
  rw [Ideal.ofBits_zero_f32, zero_add]; unfold Cert.Row.psq
  refine Finset.sum_congr rfl fun k _ => ?_
  rw [show idx_main_v60 (ix1 r) k = ix2 r k by idx2, s59]
theorem s61 (r : Fin 4194304) :
    val_main_v61 (F := Ideal) X (ix2 r (0 : Fin 1)) = Cert.Row.psq (Cert.Row.p (xr X r)) := by
  rw [val_main_v61_apply, show idx_main_v61 (ix2 r (0 : Fin 1)) = ix1 r by idx1, s60]
theorem c62 (i : S4194304x1.Idx) : val_main_v62 (F := Ideal) i = Ideal.ofBits .f32 0x3F000000#32 :=
  val_main_v62_apply i

/-! The potential, computed a second time under fresh names. -/

theorem s64 (k : Fin 2) (j : Fin 16) : val_main_v64 (F := Ideal) W1 (ix2 k j) = w1 W1 j k := by
  rw [val_main_v64_apply]
  exact congrArg W1 (by idx2)
theorem s65 (r : Fin 4194304) (j : Fin 16) :
    val_main_v65 (F := Ideal) X W1 (ix2 r j) = ∑ k : Fin 2, Cert.Row.q (xr X r) k * w1 W1 j k := by
  rw [val_main_v65_apply]
  refine Finset.sum_congr rfl fun k _ => ?_
  rw [show lidx_main_v65 (ix2 r j) k = ix2 r k by idx2, show ridx_main_v65 (ix2 r j) k = ix2 k j by idx2, s0, s64]
theorem s67 (r : Fin 4194304) (j : Fin 16) : val_main_v67 (F := Ideal) B1 (ix2 r j) = b1 B1 j := by
  rw [val_main_v67_apply, val_main_v66_apply]
  exact congrArg B1 (by idx1)
theorem s69 (r : Fin 4194304) (j : Fin 16) :
    val_main_v69 (F := Ideal) X W1 B1 (ix2 r j) = Cert.Row.hid (xr X r) (w1 W1) (b1 B1) j := by
  rw [val_main_v69_apply, val_main_v68_apply, s65, s67]; rfl
theorem s70 (j : Fin 16) : val_main_v70 (F := Ideal) W2 (ix2 j (0 : Fin 1)) = w2 W2 j := by
  rw [val_main_v70_apply]
  exact congrArg W2 (by idx2)
theorem s71 (r : Fin 4194304) :
    val_main_v71 (F := Ideal) X W1 B1 W2 (ix2 r (0 : Fin 1))
      = ∑ j : Fin 16, Cert.Row.hid (xr X r) (w1 W1) (b1 B1) j * w2 W2 j := by
  rw [val_main_v71_apply]
  refine Finset.sum_congr rfl fun j _ => ?_
  rw [show lidx_main_v71 (ix2 r (0 : Fin 1)) j = ix2 r j by idx2,
    show ridx_main_v71 (ix2 r (0 : Fin 1)) j = ix2 j (0 : Fin 1) by idx2, s69, s70]
theorem s73 (r : Fin 4194304) : val_main_v73 (F := Ideal) B2 (ix2 r (0 : Fin 1)) = b2 B2 := by
  rw [val_main_v73_apply, val_main_v72_apply]
  exact congrArg B2 (by idx1)
theorem s74 (r : Fin 4194304) :
    val_main_v74 (F := Ideal) X W1 B1 W2 B2 (ix2 r (0 : Fin 1))
      = Cert.Row.mlp (xr X r) (w1 W1) (b1 B1) (w2 W2) (b2 B2) := by
  rw [val_main_v74_apply, s71, s73]; rfl
theorem s75 (r : Fin 4194304) (k : Fin 2) :
    val_main_v75 (F := Ideal) X (ix2 r k) = Cert.Row.q (xr X r) k * Cert.Row.q (xr X r) k := by
  rw [val_main_v75_apply, s0]; rfl
theorem s76 (r : Fin 4194304) : val_main_v76 (F := Ideal) X (ix1 r) = Cert.Row.qn (xr X r) := by
  rw [val_main_v76_apply]
  show Ideal.ofBits .f32 0x00000000#32 + _ = _
  rw [Ideal.ofBits_zero_f32, zero_add]; unfold Cert.Row.qn
  refine Finset.sum_congr rfl fun k _ => ?_
  rw [show idx_main_v76 (ix1 r) k = ix2 r k by idx2, s75]
theorem s77 (r : Fin 4194304) : val_main_v77 (F := Ideal) X (ix2 r (0 : Fin 1)) = Cert.Row.qn (xr X r) := by
  rw [val_main_v77_apply, show idx_main_v77 (ix2 r (0 : Fin 1)) = ix1 r by idx1, s76]
theorem c78 (i : S4194304x1.Idx) : val_main_v78 (F := Ideal) i = Ideal.ofBits .f32 0x41A00000#32 :=
  val_main_v78_apply i
theorem c80 (i : S4194304x1.Idx) : val_main_call1_v0 (F := Ideal) i = Ideal.ofBits .f32 0x00000000#32 :=
  val_main_call1_v0_apply i
theorem s80 (r : Fin 4194304) : val_main_v80 (F := Ideal) X (ix2 r (0 : Fin 1)) = Cert.Row.relu (xr X r) := by
  rw [val_main_v80_apply, val_main_v79_apply, s77, c78, c80]; rfl
theorem s82 (r : Fin 4194304) :
    val_main_v82 (F := Ideal) X W1 B1 W2 B2 (ix2 r (0 : Fin 1))
      = Cert.Row.pot (xr X r) (w1 W1) (b1 B1) (w2 W2) (b2 B2) := by
  rw [val_main_v82_apply, val_main_v81_apply, s74, s80]; rfl

theorem c84 (i : S4194304x1.Idx) : val_main_v84 (F := Ideal) i = Ideal.ofBits .f32 0x3DCCCCCD#32 :=
  val_main_v84_apply i
theorem c88 (i : S4194304x1.Idx) : val_main_v88 (F := Ideal) i = Ideal.ofBits .f32 0x3DCCCCCD#32 :=
  val_main_v88_apply i
/-- The new scalar at row r. -/
theorem s90 (r : Fin 4194304) :
    val_main_v90 (F := Ideal) X W1 B1 W2 B2 (ix2 r (0 : Fin 1))
      = Cert.Row.snew (Cert.Row.p (xr X r)) (Cert.Row.s (xr X r))
          (Cert.Row.pot (xr X r) (w1 W1) (b1 B1) (w2 W2) (b2 B2)) := by
  rw [val_main_v90_apply, val_main_v89_apply, val_main_v87_apply, val_main_v86_apply, val_main_v85_apply,
    val_main_v83_apply, val_main_v63_apply, s2, s61, s82, c62, c84, c88]; rfl

/-! ## The step: the resonator -/

theorem c91 (i : S4194304x2.Idx) : val_main_v91 (F := Ideal) i = Ideal.ofBits .f32 0xBF800000#32 :=
  val_main_v91_apply i
theorem c93 (i : S4194304x2.Idx) : val_main_v93 (F := Ideal) i = Ideal.ofBits .f32 0x3E4CCCCD#32 :=
  val_main_v93_apply i
theorem c97 (i : S4194304x2.Idx) : val_main_v97 (F := Ideal) i = Ideal.ofBits .f32 0x3DCCCCCD#32 :=
  val_main_v97_apply i
theorem c100 (i : S4194304x2.Idx) : val_main_v100 (F := Ideal) i = Ideal.ofBits .f32 0x3DCCCCCD#32 :=
  val_main_v100_apply i
/-- The resonator's new velocity at row r. -/
theorem s99 (r : Fin 4194304) (c : Fin 2) :
    val_main_v99 (F := Ideal) X U (ix2 r c)
      = Cert.Row.vrnew (Cert.Row.r (xr X r)) (Cert.Row.vr (xr X r)) (ur U r) c := by
  rw [val_main_v99_apply, val_main_v98_apply, val_main_v96_apply, val_main_v95_apply, val_main_v94_apply,
    val_main_v92_apply, s3, s4, c91, c93, c97]; rfl
/-- The resonator's new position at row r. -/
theorem s102 (r : Fin 4194304) (c : Fin 2) :
    val_main_v102 (F := Ideal) X U (ix2 r c)
      = Cert.Row.rnew (Cert.Row.r (xr X r)) (Cert.Row.vr (xr X r)) (ur U r) c := by
  rw [val_main_v102_apply, val_main_v101_apply, s3, s99, c100]; rfl

/-! ## The result: the five new pieces side by side -/

/-- THE REFERENCE AT (r, c): the new row of row r, with the differentiated gradient, at column c. -/
theorem ref_at (r : Fin 4194304) (c : Fin 9) :
    val_main_v103 (F := Ideal) X U W1 B1 W2 B2 (ix2 r c)
      = Cert.Row.outR (fun c' => X (ix2 r c')) (fun k => U (ix2 r k)) (fun j k => W1 (ix2 j k)) (fun j => B1 (ix1 j))
          (fun j => W2 (ix2 (0 : Fin 1) j)) (B2 (ix1 (0 : Fin 1))) c := by
  unfold val_main_v103
  refine (Cert.Cat.cat5_apply _ _ _ _ _ _ r c).trans ?_
  unfold Cert.Row.outR Cert.Row.out Cert.Row.step
  simp only [s58, s55, s90, s102, s99]

end Cert.RefRow

end
-- ==== Proof.Bridge.lean ====
/-
  The reference's result array is `G` of the argument arrays, on finite inputs.

  At `(r, c)` the reference's result is the step of row `r` with the differentiated gradient, and `G` is the step of the
  same row with the hand-derived gradient (its one-row biases read back as the biases); on a real row and real
  weights the two gradients agree (`Row.outK_eq_outR`).
-/
import proofs.«109629_j45964740002431_1_alg».proof.Proof.RefRow
import proofs.«109629_j45964740002431_1_alg».proof.Proof.Spec

noncomputable section

namespace Cert.Bridge

open Idealize.ShloMosaic Idealize.ShloMosaic.ValueIdx Cert.ReferenceIdeal Cert.ReferenceIdeal.Read

theorem ref_eq_G (X : (⟨S4194304x9, .f32⟩ : BufTy).Contents (Elt Ideal)) (U : (⟨S4194304x2, .f32⟩ : BufTy).Contents (Elt Ideal))
    (W1 : (⟨S16x2, .f32⟩ : BufTy).Contents (Elt Ideal)) (B1 : (⟨S16, .f32⟩ : BufTy).Contents (Elt Ideal))
    (W2 : (⟨S1x16, .f32⟩ : BufTy).Contents (Elt Ideal)) (B2 : (⟨S1, .f32⟩ : BufTy).Contents (Elt Ideal))
    (h1 : (⟨1, ![16]⟩ : Shape).ShapeCasts ⟨2, ![1, 16]⟩) (h2 : (⟨1, ![1]⟩ : Shape).ShapeCasts ⟨2, ![1, 1]⟩)
    (hX : ∀ i, ∃ t : ℝ, X i = (t : EReal)) (hW1 : ∀ i, ∃ t : ℝ, W1 i = (t : EReal))
    (hW2 : ∀ i, ∃ t : ℝ, W2 i = (t : EReal)) :
    val_main_v103 (F := Ideal) X U W1 B1 W2 B2
      = Cert.Spec.G X U W1 (shapeCast ⟨2, ![1, 16]⟩ B1 h1) W2 (shapeCast ⟨2, ![1, 1]⟩ B2 h2) := by
  funext i
  obtain ⟨r, c, rfl⟩ : ∃ (r : Fin 4194304) (c : Fin 9), i = ix2 r c := ⟨i 0, i 1, eq_ix2 i⟩
  rw [Cert.RefRow.ref_at, Cert.Spec.G_at]
  simp only [Cert.Spec.oneRow_apply]
  exact (congrFun (Cert.Row.outK_eq_outR _ _ _ _ _ _ (fun c' => hX _) (fun j k => hW1 _) (fun j => hW2 _)) c).symm

end Cert.Bridge

end
-- ==== Proof.Finite.lean ====
/-
  Every float input is finite: the printed precondition is, per argument array a, the conjunction over all entries of
  |a i| < +∞, the six conjunctions joined by "and". At the ideal instance a float is an extended real, |x| is
  max x (-x), and the word 0x7F800000 denotes ⊤; |x| < ⊤ rules out x = ⊤ and x = ⊥, so x is a real number.
-/
import proofs.«109629_j45964740002431_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic

/-- The rank-0 shape has one index. -/
instance subsingleton_S_Idx : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One conjunction over all entries i of |x i| < +∞ that came out 1: every entry of x is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hS : 0 < Cert.Pre_finite_inputs.S_.numel)
    (x : FVec Ideal s .f32)
    (h : Host.reduce IntOp.andi
          (cmpf .olt (Host.absf x) (broadcastInDim s ![] hb (constant Cert.Pre_finite_inputs.S_ .f32 0x7F800000#32)))
          (constantI Cert.Pre_finite_inputs.S_ 1 1#1) hr hS ValueIdx.ix0 = 1#1) :
    ∀ i, ∃ r : ℝ, x i = (r : EReal) := by
  intro i
  have e := Host.reduce_andi_all _ _ hr hS ValueIdx.ix0 h i
  apply real_of_abs_lt_top
  have e2 : Ideal.cmp .olt (max (x i) (-(x i))) (Ideal.ofBits .f32 0x7F800000#32) = 1#1 := e
  rw [ofBits_inf] at e2
  have e3 : BitVec.ofBool (decide (max (x i) (-(x i)) < (⊤ : EReal))) = 1#1 := e2
  by_contra hc
  rw [decide_eq_false hc] at e3
  exact absurd e3 (by decide)

/-- THE PRECONDITION DECODED: every entry of every argument array is a real number. -/
theorem real_of_pre [Cert.Pre_finite_inputs.Facts]
    (a0 : FVec Ideal Cert.Pre_finite_inputs.S4194304x9 .f32) (a1 : FVec Ideal Cert.Pre_finite_inputs.S4194304x2 .f32)
    (a2 : FVec Ideal Cert.Pre_finite_inputs.S16x2 .f32) (a3 : FVec Ideal Cert.Pre_finite_inputs.S16 .f32)
    (a4 : FVec Ideal Cert.Pre_finite_inputs.S1x16 .f32) (a5 : FVec Ideal Cert.Pre_finite_inputs.S1 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  have e := congrFun h ValueIdx.ix0
  dsimp only [Cert.Pre_finite_inputs.fn, Cert.Pre_finite_inputs.fn_part1] at e
  simp only [andi, IntOp.andi_eq_one] at e
  obtain ⟨⟨⟨⟨⟨h0, h1⟩, h2⟩, h3⟩, h4⟩, h5⟩ := e
  exact ⟨real_of_all _ _ _ a0 h0, real_of_all _ _ _ a1 h1, real_of_all _ _ _ a2 h2,
    real_of_all _ _ _ a3 h3, real_of_all _ _ _ a4 h4, real_of_all _ _ _ a5 h5⟩

end Cert.Finite

end
-- ==== Proof.lean ====
/-
  One explicit Euler step of a damped Hamiltonian system with a learned potential, and of a driven damped resonator,
  over 4194304 rows: the kernel against its reference, on the extended reals.

  Each row of the state holds a position `q`, a momentum `p`, a scalar `s`, and a resonator's position and velocity;
  the potential of `q` is a two-layer perceptron plus the square of the barrier `max (|q|² − 20) 0`.  The kernel
  works on 64 blocks of 65536 rows and spells the gradient of the potential by hand; the reference differentiates
  the potential.  Row by row both compute the same step (Proof/Row.lean): the only difference, the two spellings of
  the gradient, vanishes on real data — `(1 − h)(1 + h) = 1 − h²` for the perceptron and `2·relu·2q = 4·relu·q` for
  the barrier — and the precondition makes every input entry real (Proof/Finite.lean).

  The kernel's body read at a row is Proof/KerRow.lean; that the 64 written blocks assemble to one whole-array
  function `G` of the arguments (Proof/Spec.lean) is Proof/Blocks.lean; the reference read at a row is
  Proof/RefRow.lean, and that it is `G` on finite inputs Proof/Bridge.lean.  The idealization rewrote no operation,
  so its claim is trivial; the three frames are the generated ones.
-/
import proofs.«109629_j45964740002431_1_alg».proof.Defs
import proofs.«109629_j45964740002431_1_alg».proof.Proof.Gen.Kernel
import proofs.«109629_j45964740002431_1_alg».proof.Proof.Gen.Kernel.Skeleton
import proofs.«109629_j45964740002431_1_alg».proof.Proof.Gen.Kernel.Launch
import proofs.«109629_j45964740002431_1_alg».proof.Proof.Gen.Kernel.Points
import proofs.«109629_j45964740002431_1_alg».proof.Proof.Gen.Kernel.Frame
import proofs.«109629_j45964740002431_1_alg».proof.Proof.Gen.KernelIdeal
import proofs.«109629_j45964740002431_1_alg».proof.Proof.Gen.KernelIdeal.Skeleton
import proofs.«109629_j45964740002431_1_alg».proof.Proof.Gen.KernelIdeal.Launch
import proofs.«109629_j45964740002431_1_alg».proof.Proof.Gen.KernelIdeal.Points
import proofs.«109629_j45964740002431_1_alg».proof.Proof.Gen.KernelIdeal.Frame
import proofs.«109629_j45964740002431_1_alg».proof.Proof.Gen.ReferenceIdeal
import proofs.«109629_j45964740002431_1_alg».proof.Proof.Gen.Pre_finite_inputs
import proofs.«109629_j45964740002431_1_alg».proof.Proof.Gen.KernelIdeal.Value
import proofs.«109629_j45964740002431_1_alg».proof.Proof.Gen.ReferenceIdeal.Run
import proofs.«109629_j45964740002431_1_alg».proof.Proof.Gen.ReferenceIdeal.Read
import proofs.«109629_j45964740002431_1_alg».proof.Proof.Blocks
import proofs.«109629_j45964740002431_1_alg».proof.Proof.Bridge
import proofs.«109629_j45964740002431_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at `G` of the arguments: the kernel block by block, the reference
    because on the finite inputs the precondition grants its differentiated gradient is the hand-derived one. -/
theorem algebraic : Cert.algebraic_KernelIdeal_ReferenceIdeal := by
  intro m ρ m' ρ' hpre hagree
  refine ⟨_, Cert.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨f0, f1, f2, f3, f4, f5⟩ := Cert.Finite.real_of_pre _ _ _ _ _ _ (hpre c)
  rw [Cert.ReferenceIdeal.Read.val_main_v103_eq, a0, a1, a2, a3, a4, a5]
  exact Cert.Bridge.ref_eq_G _ _ _ _ _ _ _ _ f0 f2 f4

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
